-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x3072 : Shape := ⟨3, ![1, 4096, 3072]⟩
abbrev S3072x16384 : Shape := ⟨2, ![3072, 16384]⟩
abbrev S8192x3072 : Shape := ⟨2, ![8192, 3072]⟩
abbrev S_ : Shape := ⟨0, ![]⟩

class Facts : Prop where
  bcast_S_S1x4096x3072 : S_.BroadcastsInDim S1x4096x3072 (![] : Fin 0 → Fin S1x4096x3072.rank)
  reducesTo_S1x4096x3072_S_d0_1_2 : S1x4096x3072.ReducesTo [0, 1, 2] S_
  h_S_ : 0 < S_.numel
  bcast_S_S3072x16384 : S_.BroadcastsInDim S3072x16384 (![] : Fin 0 → Fin S3072x16384.rank)
  reducesTo_S3072x16384_S_d0_1 : S3072x16384.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn {F : FTy → Type} [FloatOps F] (main_arg0 : FVec F S1x4096x3072 .f32) (main_arg1 : FVec F S3072x16384 .f32) (main_arg2 : FVec F S8192x3072 .f32) : IVec S_ 1 :=
  let main_v0 : FVec F S1x4096x3072 .f32 := Host.absf main_arg0
  let main_cst : FVec F S_ .f32 := constant S_ .f32 0x7F800000#32
  let main_v1 : FVec F S1x4096x3072 .f32 := broadcastInDim S1x4096x3072 ![] bcast_S_S1x4096x3072 main_cst
  let main_v2 : IVec S1x4096x3072 1 := cmpf .olt main_v0 main_v1
  let main_c : IVec S_ 1 := constantI S_ 1 1#1
  let main_v3 : IVec S_ 1 := (fun x v => Host.reduce IntOp.andi x v reducesTo_S1x4096x3072_S_d0_1_2 h_S_) main_v2 main_c
  let main_v4 : FVec F S3072x16384 .f32 := Host.absf main_arg1
  let main_cst_0 : FVec F S_ .f32 := constant S_ .f32 0x7F800000#32
  let main_v5 : FVec F S3072x16384 .f32 := broadcastInDim S3072x16384 ![] bcast_S_S3072x16384 main_cst_0
  let main_v6 : IVec S3072x16384 1 := cmpf .olt main_v4 main_v5
  let main_c_1 : IVec S_ 1 := constantI S_ 1 1#1
  let main_v7 : IVec S_ 1 := (fun x v => Host.reduce IntOp.andi x v reducesTo_S3072x16384_S_d0_1 h_S_) main_v6 main_c_1
  let main_v8 : IVec S_ 1 := andi main_v3 main_v7
  let main_v9 : FVec F S8192x3072 .f32 := Host.absf main_arg2
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  let main_c_3 : IVec S_ 1 := constantI S_ 1 1#1
  let main_v12 : IVec S_ 1 := (fun x v => Host.reduce IntOp.andi x v reducesTo_S8192x3072_S_d0_1 h_S_) main_v11 main_c_3
  let main_v13 : IVec S_ 1 := andi main_v8 main_v12
  main_v13
-- ==== Kernel.lean ====
abbrev S1x4096x3072 : Shape := ⟨3, ![1, 4096, 3072]⟩
abbrev S3072x16384 : Shape := ⟨2, ![3072, 16384]⟩
abbrev S8192x3072 : Shape := ⟨2, ![8192, 3072]⟩
abbrev S4096x3072 : Shape := ⟨2, ![4096, 3072]⟩
abbrev S512x3072 : Shape := ⟨2, ![512, 3072]⟩
abbrev S3072x256 : Shape := ⟨2, ![3072, 256]⟩
abbrev S256x3072 : Shape := ⟨2, ![256, 3072]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S1x4096x3072, .f32⟩
  | .hbm, ⟨1, _⟩ => ⟨S3072x16384, .f32⟩
  | .hbm, ⟨2, _⟩ => ⟨S8192x3072, .f32⟩
  | .hbm, ⟨3, _⟩ => ⟨S4096x3072, .f32⟩
  | .hbm, ⟨4, _⟩ => ⟨S4096x3072, .bf16⟩
  | .hbm, ⟨5, _⟩ => ⟨S3072x16384, .bf16⟩
  | .hbm, ⟨6, _⟩ => ⟨S8192x3072, .bf16⟩
  | .hbm, ⟨7, _⟩ => ⟨S4096x3072, .f32⟩
  | .hbm, ⟨8, _⟩ => ⟨S1x4096x3072, .f32⟩
  | .local _ .vmem, ⟨0, _⟩ => ⟨S512x3072, .bf16⟩
  | .local _ .vmem, ⟨1, _⟩ => ⟨S512x3072, .bf16⟩
  | .local _ .vmem, ⟨2, _⟩ => ⟨S3072x256, .bf16⟩
  | .local _ .vmem, ⟨3, _⟩ => ⟨S3072x256, .bf16⟩
  | .local _ .vmem, ⟨4, _⟩ => ⟨S3072x256, .bf16⟩
  | .local _ .vmem, ⟨5, _⟩ => ⟨S3072x256, .bf16⟩
  | .local _ .vmem, ⟨6, _⟩ => ⟨S256x3072, .bf16⟩
  | .local _ .vmem, ⟨7, _⟩ => ⟨S256x3072, .bf16⟩
  | .local _ .vmem, ⟨8, _⟩ => ⟨S512x3072, .f32⟩
  | .local _ .vmem, ⟨9, _⟩ => ⟨S512x3072, .f32⟩
  | .local _ .vmem, ⟨10, _⟩ => ⟨S512x3072, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x4096x3072_S4096x3072 : S1x4096x3072.ShapeCasts S4096x3072
  bitsLt_bf16_f32 : FTy.bits .bf16 < FTy.bits .f32
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  shapeCasts_S4096x3072_S1x4096x3072 : S4096x3072.ShapeCasts S1x4096x3072
  dot_S512x3072_S3072x256_S512x256_1_0_0_1_n_n_wf : DotDims.WF S512x3072 S3072x256 S512x256 [1] [0] [0] [1] [] []
  dot_S512x256_S256x3072_S512x3072_1_0_0_1_n_n_wf : DotDims.WF S512x256 S256x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S4096x3072.size a
  hwx0_0 : ∀ i : grid0.Coords, EltTy.bits .bf16 = 32 ∨ (Rect.block (s := S4096x3072) S512x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S3072x16384.size a
  hwx0_1 : ∀ i : grid0.Coords, EltTy.bits .bf16 = 32 ∨ (Rect.block (s := S3072x16384) S3072x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x256.size a ≤ S3072x16384.size a
  hwx0_2 : ∀ i : grid0.Coords, EltTy.bits .bf16 = 32 ∨ (Rect.block (s := S3072x16384) S3072x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S8192x3072.size a
  hwx0_3 : ∀ i : grid0.Coords, EltTy.bits .bf16 = 32 ∨ (Rect.block (s := S8192x3072) S256x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S4096x3072.size a
  hwx0_4 : ∀ i : grid0.Coords, EltTy.bits .f32 = 32 ∨ (Rect.block (s := S4096x3072) S512x3072.size (cc0_transform_4 i) (hinb0_4 i)).WholeWords (EltTy.packing .f32)

variable [Facts₀]

def dot_S512x3072_S3072x256_S512x256_1_0_0_1_n_n : DotDims S512x3072 S3072x256 S512x256 where
  lhsContracting := [1]
  rhsContracting := [0]
  lhsNonContracting := [0]
  rhsNonContracting := [1]
  lhsBatch := []
  rhsBatch := []
  wf := dot_S512x3072_S3072x256_S512x256_1_0_0_1_n_n_wf
def dot_S512x256_S256x3072_S512x3072_1_0_0_1_n_n : DotDims S512x256 S256x3072 S512x3072 where
  lhsContracting := [1]
  rhsContracting := [0]
  lhsNonContracting := [0]
  rhsNonContracting := [1]
  lhsBatch := []
  rhsBatch := []
  wf := dot_S512x256_S256x3072_S512x3072_1_0_0_1_n_n_wf

abbrev win0_0 : Pipeline.Window sig grid0 :=
  Pipeline.Window.ofSpec (Memref.whole main_v1) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x4096x3072 : Shape := ⟨3, ![1, 4096, 3072]⟩
abbrev S3072x16384 : Shape := ⟨2, ![3072, 16384]⟩
abbrev S8192x3072 : Shape := ⟨2, ![8192, 3072]⟩
abbrev S1x4096x16384 : Shape := ⟨3, ![1, 4096, 16384]⟩
abbrev S1x4096x8192 : Shape := ⟨3, ![1, 4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x3072, .f32⟩
  | .hbm, ⟨1, _⟩ => ⟨S3072x16384, .f32⟩
  | .hbm, ⟨2, _⟩ => ⟨S8192x3072, .f32⟩
  | .hbm, ⟨3, _⟩ => ⟨S1x4096x16384, .f32⟩
  | .hbm, ⟨4, _⟩ => ⟨S1x4096x8192, .f32⟩
  | .hbm, ⟨5, _⟩ => ⟨S1x4096x8192, .f32⟩
  | .hbm, ⟨6, _⟩ => ⟨S1x4096x8192, .f32⟩
  | .hbm, ⟨7, _⟩ => ⟨S1x4096x8192, .f32⟩
  | .hbm, ⟨8, _⟩ => ⟨S_, .f32⟩
  | .hbm, ⟨9, _⟩ => ⟨S1x4096x8192, .f32⟩
  | .hbm, ⟨10, _⟩ => ⟨S1x4096x8192, .f32⟩
  | .hbm, ⟨11, _⟩ => ⟨S_, .f32⟩
  | .hbm, ⟨12, _⟩ => ⟨S1x4096x8192, .f32⟩
  | .hbm, ⟨13, _⟩ => ⟨S1x4096x8192, .f32⟩
  | .hbm, ⟨14, _⟩ => ⟨S1x4096x8192, .f32⟩
  | .hbm, ⟨15, _⟩ => ⟨S1x4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096x8192, .f32⟩
  | .hbm, ⟨20, _⟩ => ⟨S1x4096x8192, .f32⟩
  | .hbm, ⟨21, _⟩ => ⟨S_, .f32⟩
  | .hbm, ⟨22, _⟩ => ⟨S1x4096x8192, .f32⟩
  | .hbm, ⟨23, _⟩ => ⟨S1x4096x8192, .f32⟩
  | .hbm, ⟨24, _⟩ => ⟨S1x4096x3072, .f32⟩
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  slices_S1x4096x16384_S1x4096x8192_0_0_0 : S1x4096x16384.Slices ![0, 0, 0] S1x4096x8192
  slices_S1x4096x16384_S1x4096x8192_0_0_8192 : S1x4096x16384.Slices ![0, 0, 8192] S1x4096x8192
  bcast_S_S1x4096x8192 : S_.BroadcastsInDim S1x4096x8192 (![] : Fin 0 → Fin S1x4096x8192.rank)
  dot_S1x4096x3072_S3072x16384_S1x4096x16384_2_0_01_1_n_n_wf : DotDims.WF S1x4096x3072 S3072x16384 S1x4096x16384 [2] [0] [0, 1] [1] [] []
  dot_S1x4096x8192_S8192x3072_S1x4096x3072_2_0_01_1_n_n_wf : DotDims.WF S1x4096x8192 S8192x3072 S1x4096x3072 [2] [0] [0, 1] [1] [] []

variable [Facts₀]

def dot_S1x4096x3072_S3072x16384_S1x4096x16384_2_0_01_1_n_n : DotDims S1x4096x3072 S3072x16384 S1x4096x16384 where
  lhsContracting := [2]
  rhsContracting := [0]
  lhsNonContracting := [0, 1]
  rhsNonContracting := [1]
  lhsBatch := []
  rhsBatch := []
  wf := dot_S1x4096x3072_S3072x16384_S1x4096x16384_2_0_01_1_n_n_wf
def dot_S1x4096x8192_S8192x3072_S1x4096x3072_2_0_01_1_n_n : DotDims S1x4096x8192 S8192x3072 S1x4096x3072 where
  lhsContracting := [2]
  rhsContracting := [0]
  lhsNonContracting := [0, 1]
  rhsNonContracting := [1]
  lhsBatch := []
  rhsBatch := []
  wf := dot_S1x4096x8192_S8192x3072_S1x4096x3072_2_0_01_1_n_n_wf

class Facts : Prop extends Facts₀ where

variable [Facts]
-- ==== Proof.K.Base.lean ====
/-
  What the runs of the fused feed-forward kernel share: the contents the region finds (the host's reshape and the three
  roundings to bf16 applied to the arguments), each window's block at a grid point, the two conditions of the body in
  closed form — the hidden-axis coordinate is 0 (the accumulator is cleared) or 31 (the accumulator is copied out) —
  and where the output window is idle.
-/
import proofs.«172588_j28905129902663_2_alg».proof.Proof.Gen.Kernel.Launch
import proofs.«172588_j28905129902663_2_alg».proof.Proof.Gen.Kernel.Skeleton
import proofs.«172588_j28905129902663_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: the launch contents after the reshape of `x` and the three
    roundings. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, the final reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The accumulator is cleared: the hidden-axis coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The accumulator is copied to the output block: the hidden-axis coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last hidden block the body stores nothing into the output window, and the window is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last hidden block the body stores the output window. -/
theorem liveAt0_4 : ∀ t : Fin cfg0.N, cond0_1 (grid0.coords t) → cfg0.idle 4 (grid0.coords t) = false := by decide +kernel

/-! ## The staging memrefs at a point -/

abbrev VO0_4 : View sig .tc .vmem S512x3072 .f32 := (Memref.whole cc0_stg4_0 : Memref sig .tc .vmem S512x3072 .f32).view
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S512x3072 .f32 := Memref.whole cc0_scratch0
abbrev VS0_0 : View sig .tc .vmem S512x3072 .f32 := scM0_0.view

/-- What the launch hands the body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at the first hidden block of a row tile: the accumulator is cleared, then the block's product is added; nothing is stored to the output block.
-/
import proofs.«172588_j28905129902663_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs: the four input blocks are left as they were; the pieces
    stored into the accumulator (`LS0`) and into the output block (`L4`) are what the run finds. -/
noncomputable def kernelRun0_A (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) :
    Σ' (L4 : List (View.Piece (Elt F) S512x3072 .f32)), { LS0 : List (View.Piece (Elt F) S512x3072 .f32) //
      ∀ (xi4 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The body at a middle hidden block: the block's product is added to the accumulator the point before left; nothing is stored to the output block.
-/
import proofs.«172588_j28905129902663_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs: the four input blocks are left as they were; the pieces
    stored into the accumulator (`LS0`) and into the output block (`L4`) are what the run finds. -/
noncomputable def kernelRun0_B (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) :
    Σ' (L4 : List (View.Piece (Elt F) S512x3072 .f32)), { LS0 : List (View.Piece (Elt F) S512x3072 .f32) //
      ∀ (xi4 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The body at the last hidden block: the block's product is added to the accumulator, and the accumulator is copied to the output block.
-/
import proofs.«172588_j28905129902663_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs: the four input blocks are left as they were; the pieces
    stored into the accumulator (`LS0`) and into the output block (`L4`) are what the run finds. -/
noncomputable def kernelRun0_C (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) :
    Σ' (L4 : List (View.Piece (Elt F) S512x3072 .f32)), { LS0 : List (View.Piece (Elt F) S512x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, ?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Frame.lean ====
/-
  What the accumulator and the output block hold after each grid point, the proof data of the pipeline, and the body's
  obligation at every point.  A row tile's 32 hidden blocks are consecutive points: at the first the accumulator is
  cleared and the block's product added, at the others the product is added to what the point before left, and at the
  last the sum is also copied to the output block, which is written back there and only there.
-/
import proofs.«172588_j28905129902663_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's staging buffer: its pieces read back (none: the window is idle there, and nothing consults this). -/
def out0_A_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) : Vec F S512x3072 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores cover the accumulator. -/
theorem scover0_A_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) (y : S512x3072.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x3072.size (by sl_kernel_rfl) y

/-- What case A leaves in the accumulator: its pieces read back. -/
def sout0_A_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) : Vec F S512x3072 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer: its pieces read back (none: the window is idle there, and nothing consults this). -/
def out0_B_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores cover the accumulator. -/
theorem scover0_B_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) (y : S512x3072.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x3072.size (by sl_kernel_rfl) y

/-- What case B leaves in the accumulator: its pieces read back. -/
def sout0_B_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case C leaves in the output block's staging buffer: its pieces read back. -/
def out0_C_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's one store covers the output block. -/
theorem cover0_C_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) (y : S512x3072.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x3072.size (by sl_kernel_rfl) y

/-- Case C's stores cover the accumulator. -/
theorem scover0_C_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) (y : S512x3072.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x3072.size (by sl_kernel_rfl) y

/-- What case C leaves in the accumulator: its pieces read back. -/
def sout0_C_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the buffers hold after each point -/

/-- After the body at position `n`: the output block's staging buffer and the accumulator. -/
def outsAt0 (c : Dev nD) : (n : ℕ) → n < cfg0.N → Vec F S512x3072 .f32 × Vec F S512x3072 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; each input's buffer at its block; the output's at `outsAt0`; the fused weight's
    share halved between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the closed forms of the two conditions say which case the point is in; the invariant hands
    the body the accumulator at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have h1 : ¬t.val % 32 = 31 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 32 = 31
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.K.Around.lean ====
/-
  The launch of the fused feed-forward kernel: two of its input windows — the "up" columns and the "gate" columns —
  read ONE array, the rounded fused weight, so its full share is dealt between them at entry (a left and a right half)
  and joined again at exit; around the region the host reshapes the activations and rounds the three arguments before,
  and reshapes the kernel's result after.  The run ends with every window's array at what the write-backs leave and every
  other unscoped buffer at what the final reshape leaves.
-/
import proofs.«172588_j28905129902663_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows -/

/-- The distinct buffers behind the five windows' arrays, each whole, listed. -/
theorem arrBufs0_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_v1) ↦{fullShare} A main_v1) ∗ (((c : Thread nD τ).loc main_v2) ↦{fullShare} A main_v2)
          ∗ (((c : Thread nD τ).loc main_v3) ↦{fullShare} A main_v3) ∗ (((c : Thread nD τ).loc main_v4) ↦{fullShare} A main_v4)) := by
  unfold Pipeline.arrBufs
  exact bigSep_eq_bigSepL_of_eq [main_v1, main_v2, main_v3, main_v4] (by decide) (by decide) _

/-- The windows' arrays at the contents `A` gives the buffers behind them, window by window at its share. -/
theorem arrays0_eq {c : Dev nD} (dat : Dat τ (Elt F) Unit ℕ (UR sig nD τ) ℕ cfg0 c) (A : (b : Ref sig .tc) → Buf (Elt F) ((c : Thread nD τ).loc b)) :
    (dat.arrays (fun w => A (Pipeline.arrRef spec0 w)) : sProp 𝕄)
      = iprop((((c : Thread nD τ).loc main_v1) ↦{dat.share 0} A main_v1) ∗ (((c : Thread nD τ).loc main_v2) ↦{dat.share 1} A main_v2)
          ∗ (((c : Thread nD τ).loc main_v2) ↦{dat.share 2} A main_v2) ∗ (((c : Thread nD τ).loc main_v3) ↦{dat.share 3} A main_v3)
          ∗ (((c : Thread nD τ).loc main_v4) ↦{dat.share 4} A main_v4)) := by
  unfold Dat.arrays
  rw [bigSep_W0]
  rw [(arr_whole0 0).set_eq_univ, (arr_whole0 1).set_eq_univ, (arr_whole0 3).set_eq_univ, (arr_whole0 4).set_eq_univ]

section Shares

variable {c : Dev nD} (dat : Dat τ (Elt F) Unit ℕ (UR sig nD τ) ℕ cfg0 c)
  (hq0 : dat.q 0 = fullShare) (hq1 : dat.q 1 = fullShare.left) (hq2 : dat.q 2 = fullShare.right) (hq3 : dat.q 3 = fullShare)

include hq0 in
theorem share0 : dat.share 0 = fullShare := by unfold Dat.share; exact hq0
include hq1 in
theorem share1 : dat.share 1 = fullShare.left := by unfold Dat.share; exact hq1
include hq2 in
theorem share2 : dat.share 2 = fullShare.right := by unfold Dat.share; exact hq2
include hq3 in
theorem share3 : dat.share 3 = fullShare := by unfold Dat.share; exact hq3
theorem share4 : dat.share 4 = fullShare := by unfold Dat.share; rfl

include hq0 hq1 hq2 hq3 in
/-- Entry: the four buffers whole make the five windows' arrays, the fused weight's share halved. -/
theorem arrays_deal (A : (b : Ref sig .tc) → Buf (Elt F) ((c : Thread nD τ).loc b)) :
    (Pipeline.arrBufs (Ix := Unit) (Name := ℕ) (U := UR sig nD τ) (Lvl := ℕ) spec0 c A : sProp 𝕄) ⊢ dat.arrays (fun w => A (Pipeline.arrRef spec0 w)) := by
  rw [arrBufs0_eq, arrays0_eq, share0 dat hq0, share1 dat hq1, share2 dat hq2, share3 dat hq3, share4 dat]
  iintro ⟨H1, H2, H3, H4⟩
  ihave H2' := (pointsTo_share (PosShare.mem_left_op_right fullShare)).1 $$ H2
  icases H2' with ⟨H2a, H2b⟩
  isplitl [H1]; · iexact H1
  isplitl [H2a]; · iexact H2a
  isplitl [H2b]; · iexact H2b
  isplitl [H3]; · iexact H3
  iexact H4

include hq0 hq1 hq2 hq3 in
/-- Exit: the two halves of the fused weight's share join. -/
theorem arrays_gather (A : (b : Ref sig .tc) → Buf (Elt F) ((c : Thread nD τ).loc b)) :
    (dat.arrays (fun w => A (Pipeline.arrRef spec0 w)) : sProp 𝕄) ⊢ Pipeline.arrBufs (Ix := Unit) (Name := ℕ) (U := UR sig nD τ) (Lvl := ℕ) spec0 c A := by
  rw [arrBufs0_eq, arrays0_eq, share0 dat hq0, share1 dat hq1, share2 dat hq2, share3 dat hq3, share4 dat]
  iintro ⟨H1, H2a, H2b, H3, H4⟩
  ihave H2 := (pointsTo_share (PosShare.mem_left_op_right fullShare)).2 $$ [H2a H2b]
  · isplitl [H2a]; · iexact H2a
    iexact H2b
  isplitl [H1]; · iexact H1
  isplitl [H2]; · iexact H2
  isplitl [H3]; · iexact H3
  iexact H4

end Shares

/-! ## The final reshape, after the region -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The final reshape writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- All the unscoped buffers held whole are the buffers behind the windows' arrays and the rest. -/
theorem heldW (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs 0 winFacts₀0.arr_unscoped c _

section Run

variable (dats : (p : Fin 1) → (c : Dev nD) → Dat τ (Elt F) Unit ℕ (UR sig nD τ) ℕ (cfgs p) c)

open Classical in
/-- The buffers' contents when the region is left: the kernel's result array at what the write-backs made of it, every
    other buffer as the region found it. -/
def Wx (c : Dev nD) : Valuation τ sig (Elt F) :=
  Function.update (V0 m c) (Proc.devRef .tc main_v4) ((dats 0 c).arrAt 4 cfg0.N)

/-- The buffers' contents at the end: after the final reshape. -/
abbrev afterAll (c : Dev nD) (b : Ref sig .tc) : Buf (Elt F) ((c : Thread nD τ).loc b) :=
  StableHlo.after (List.flatten [hostOps1]) (Wx m dats c) (Proc.devRef .tc b)

variable (hq0 : ∀ c, (dats 0 c).q 0 = fullShare) (hq1 : ∀ c, (dats 0 c).q 1 = fullShare.left)
  (hq2 : ∀ c, (dats 0 c).q 2 = fullShare.right) (hq3 : ∀ c, (dats 0 c).q 3 = fullShare)
  (hA : ∀ c w, (dats 0 c).A w = V m c (Pipeline.arrRef spec0 w))

include hA in
theorem Wx_arr (c : Dev nD) (w : Fin cfg0.W) :
    Wx m dats c (Proc.devRef .tc (Pipeline.arrRef spec0 w)) = (dats 0 c).arrAt w cfg0.N := by
  unfold Wx
  fin_cases w
  · exact (Function.update_of_ne (StableHlo.devRef_ne_of_ne (by decide)) _ _).trans ((hA c 0).symm.trans ((dats 0 c).arrAt_in 0 rfl _).symm)
  · exact (Function.update_of_ne (StableHlo.devRef_ne_of_ne (by decide)) _ _).trans ((hA c 1).symm.trans ((dats 0 c).arrAt_in 1 rfl _).symm)
  · exact (Function.update_of_ne (StableHlo.devRef_ne_of_ne (by decide)) _ _).trans ((hA c 2).symm.trans ((dats 0 c).arrAt_in 2 rfl _).symm)
  · exact (Function.update_of_ne (StableHlo.devRef_ne_of_ne (by decide)) _ _).trans ((hA c 3).symm.trans ((dats 0 c).arrAt_in 3 rfl _).symm)
  · exact Function.update_self _ _ _

theorem Wx_rest (c : Dev nD) (b : Ref sig .tc) (hb : b ≠ main_v4) :
    Wx m dats c (Proc.devRef .tc b) = V m c b := by
  unfold Wx
  exact Function.update_of_ne (StableHlo.devRef_ne_of_ne hb) _ _

include hA in
theorem afterAll_arr (c : Dev nD) (w : Fin cfg0.W) :
    afterAll m dats c (Pipeline.arrRef spec0 w) = (dats 0 c).arrAt w cfg0.N := by
  rw [show afterAll m dats c (Pipeline.arrRef spec0 w) = Wx m dats c (Proc.devRef .tc (Pipeline.arrRef spec0 w)) from
    StableHlo.after_of_forall_not_mem _ _ fun op hop => by
      obtain ⟨ops, hops, hop⟩ := List.mem_flatten.mp hop
      exact sfx_keeps ops hops op hop w]
  exact Wx_arr m dats hA c w

include hq0 hq1 hq2 hq3 hA in
set_option backward.isDefEq.respectTransparency.types false in
/-- From the region's exit the final reshape runs, and hands back the arrays and the other unscoped buffers at the
    contents after it. -/
theorem tail_run (c : Dev nD) (Q' : PUnit → sProp 𝕄) :
    iprop((iprop((dats 0 c).arrays ((dats 0 c).arrAt · cfg0.N) ∗ Pipeline.unscopedRestP Pipeline.Prefetch.none spec0 c (afterAll m dats c)) -∗ Q' ⟨⟩)
        ∗ boundary (c.tc : Thread nD τ) ∗ (dats 0 c).arrays ((dats 0 c).arrAt · cfg0.N) ∗ Pipeline.unscopedRestP Pipeline.Prefetch.none spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  have e1 : (fun w => (dats 0 c).arrAt w cfg0.N) = fun w => (fun b => Wx m dats c (Proc.devRef .tc b)) (Pipeline.arrRef spec0 w) :=
    funext fun w => (Wx_arr m dats hA c w).symm
  have e2 : (Pipeline.unscopedRest spec0 c (V m c) : sProp 𝕄) = Pipeline.unscopedRest spec0 c (fun b => Wx m dats c (Proc.devRef .tc b)) := by
    unfold Pipeline.unscopedRest
    exact bigSep_congr fun b hb => by
      dsimp only
      rw [Wx_rest m dats c b fun e => (Finset.mem_sdiff.mp hb).2 (Finset.mem_image.mpr ⟨4, Finset.mem_univ _, e ▸ rfl⟩)]
  have hdeal : (Pipeline.arrBufs (Ix := Unit) (Name := ℕ) (U := UR sig nD τ) (Lvl := ℕ) spec0 c (afterAll m dats c) : sProp 𝕄)
      ⊢ (dats 0 c).arrays ((dats 0 c).arrAt · cfg0.N) := by
    have h := arrays_deal (dats 0 c) (hq0 c) (hq1 c) (hq2 c) (hq3 c) (afterAll m dats c)
    rwa [show (fun w => afterAll m dats c (Pipeline.arrRef spec0 w)) = fun w => (dats 0 c).arrAt w cfg0.N from
      funext fun w => afterAll_arr m dats hA c w] at h
  have hgather : ((dats 0 c).arrays ((dats 0 c).arrAt · cfg0.N) : sProp 𝕄)
      ⊢ Pipeline.arrBufs (Ix := Unit) (Name := ℕ) (U := UR sig nD τ) (Lvl := ℕ) spec0 c (fun b => Wx m dats c (Proc.devRef .tc b)) := by
    have h := arrays_gather (dats 0 c) (hq0 c) (hq1 c) (hq2 c) (hq3 c) (fun b => Wx m dats c (Proc.devRef .tc b))
    rwa [← e1] at h
  rw [Pipeline.unscopedRestP_none, Pipeline.unscopedRestP_none, e2, ← List.append_nil ([hostOps1].map StableHlo.seq)]
  iintro ⟨Hk, Hb, Ha, Hz⟩
  ihave Hab := hgather $$ Ha
  iapply (Pipeline.wp_seqs_then (fun q => Cfg.toPCfg (Val := Elt F) (cfgs q)) defs₀ Variants.none c (Pipeline.ucRefs τ sig) [] [hostOps1] sfx_sub sfx_fresh (Wx m dats c)) $$ [Hb Hab Hz]
  · isplitl [Hb]; · iexact Hb
    rw [heldW]
    isplitl [Hab]; · iexact Hab
    iexact Hz
  iintro Hb
  rw [Pipeline.chain_nil, wp_pure, heldW]
  imodintro
  iapply Hk
  icases Hb with ⟨-, Ha, Hz⟩
  isplitl [Ha]
  · iapply hdeal; iexact Ha
  iexact Hz

include hq0 hq1 hq2 hq3 hA in
set_option backward.isDefEq.respectTransparency.types false in
/-- THE RUN: every weakly fair execution of the program terminates, and every unscoped buffer that is no window's array
    ends at the contents after the final reshape. -/
theorem run_around
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      ∀ b ∈ Pipeline.restRefsP sig Pipeline.Prefetch.none spec0, r.2.mem ((c.tc : Thread nD τ).loc b) = afterAll m dats c b) := by
  classical
  exact Pipeline.θ_run_region_pf_tail (fun q => Cfg.toPCfg (Val := Elt F) (cfgs q)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      have h := arrays_deal (dats 0 c) (hq0 c) (hq1 c) (hq2 c) (hq3 c) (V m c)
      rwa [show (fun w => V m c (Pipeline.arrRef spec0 w)) = fun w => (dats 0 c).arrAt w 0 from funext fun w => (hA c w).symm] at h)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (afterAll m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq0 hq1 hq2 hq3 hA c Q')
    (QY := fun c s => ∀ b ∈ Pipeline.restRefsP sig Pipeline.Prefetch.none spec0, s.mem ((c.tc : Thread nD τ).loc b) = afterAll m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (afterAll m dats c) s')
      isplitl [HU] <;> iassumption)
    (hQ := fun s h c => (h c).2.2)

end Run

end Cert.Kernel.Hand

end
-- ==== Proof.K.Main.lean ====
/-
  The run of the fused feed-forward program with its proof data: the program terminates, the three arguments end as
  launched, and the result is the final reshape of what the write-backs leave in the kernel's result array.
-/
import proofs.«172588_j28905129902663_2_alg».proof.Proof.K.Frame
import proofs.«172588_j28905129902663_2_alg».proof.Proof.K.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN at the kernel's proof data. -/
theorem run_main : θ_run defs (onTc (τ := τ) (main (F := F))) ⟨m, fun _ => 0, ρ⟩ (fun r => ∀ c : Dev nD,
      ∀ b ∈ Pipeline.restRefsP sig Pipeline.Prefetch.none spec0, r.2.mem ((c.tc : Thread nD τ).loc b) = afterAll m (dats m) c b) :=
  run_around m ρ (dats m) (fun _ => rfl) (fun _ => rfl) (fun _ => rfl) (fun _ => rfl) (A_eq m)
    (fun c => (body_obligation m c).loose) (fun _ _ => rfl) (hin m) (hout m)

theorem mem_rest_arg0 : main_arg0 ∈ Pipeline.restRefsP sig Pipeline.Prefetch.none spec0 := by decide
theorem mem_rest_arg1 : main_arg1 ∈ Pipeline.restRefsP sig Pipeline.Prefetch.none spec0 := by decide
theorem mem_rest_arg2 : main_arg2 ∈ Pipeline.restRefsP sig Pipeline.Prefetch.none spec0 := by decide
theorem mem_rest_v5 : main_v5 ∈ Pipeline.restRefsP sig Pipeline.Prefetch.none spec0 := by decide

/-- Neither the region nor the final reshape writes argument 0. -/
theorem afterAll_arg0 (c : Dev nD) : afterAll m (dats m) c main_arg0 = m ((c : Thread nD τ).loc main_arg0) := by
  rw [show afterAll m (dats m) c main_arg0 = Wx m (dats m) c (Proc.devRef .tc main_arg0) from
    StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wx_rest m (dats m) c main_arg0 (by decide)]
  exact V_main_arg0 m c

/-- Neither the region nor the final reshape writes argument 1. -/
theorem afterAll_arg1 (c : Dev nD) : afterAll m (dats m) c main_arg1 = m ((c : Thread nD τ).loc main_arg1) := by
  rw [show afterAll m (dats m) c main_arg1 = Wx m (dats m) c (Proc.devRef .tc main_arg1) from
    StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wx_rest m (dats m) c main_arg1 (by decide)]
  exact V_main_arg1 m c

/-- Neither the region nor the final reshape writes argument 2. -/
theorem afterAll_arg2 (c : Dev nD) : afterAll m (dats m) c main_arg2 = m ((c : Thread nD τ).loc main_arg2) := by
  rw [show afterAll m (dats m) c main_arg2 = Wx m (dats m) c (Proc.devRef .tc main_arg2) from
    StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wx_rest m (dats m) c main_arg2 (by decide)]
  exact V_main_arg2 m c

/-- The result is the kernel's result array, as the write-backs left it, with a leading unit axis. -/
theorem afterAll_v5 (c : Dev nD) :
    afterAll m (dats m) c main_v5 = shapeCast S1x4096x3072 ((dats m 0 c).arrAt 4 cfg0.N) shapeCasts_S4096x3072_S1x4096x3072 := by
  have e : afterAll m (dats m) c main_v5 = shapeCast S1x4096x3072 (Wx m (dats m) c (Proc.devRef .tc main_v4)) shapeCasts_S4096x3072_S1x4096x3072 := by
    show StableHlo.after (List.flatten [hostOps1]) (Wx m (dats m) c) (Proc.devRef .tc main_v5) = _
    simp only [hostOps1, List.flatten_cons, List.flatten_nil, List.append_nil]
    after_results
    rfl
  rw [e]
  exact congrArg (fun a => shapeCast S1x4096x3072 a shapeCasts_S4096x3072_S1x4096x3072) (Wx_arr m (dats m) (A_eq m) c 4)

/-- THE FRAME: the program terminates and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 mem_rest_arg0).trans (afterAll_arg0 m c),
    (h c main_arg1 mem_rest_arg1).trans (afterAll_arg1 m c), (h c main_arg2 mem_rest_arg2).trans (afterAll_arg2 m c)⟩) (run_main m ρ)

/-- The run with the result named. -/
theorem run_value : θ_run defs (onTc (τ := τ) (main (F := F))) ⟨m, fun _ => 0, ρ⟩ (fun r => ∀ c : Dev nD,
      r.2.mem ((c.tc : Thread nD τ).loc main_v5) = shapeCast S1x4096x3072 ((dats m 0 c).arrAt 4 cfg0.N) shapeCasts_S4096x3072_S1x4096x3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v5 mem_rest_v5).trans (afterAll_v5 m c), (h c main_arg0 mem_rest_arg0).trans (afterAll_arg0 m c),
    (h c main_arg1 mem_rest_arg1).trans (afterAll_arg1 m c), (h c main_arg2 mem_rest_arg2).trans (afterAll_arg2 m c)⟩) (run_main m ρ)

end Cert.Kernel.Hand

end
-- ==== Proof.KI.Base.lean ====
/-
  What the runs of the fused feed-forward kernel share: the contents the region finds (the host's reshape and the three
  roundings to bf16 applied to the arguments), each window's block at a grid point, the two conditions of the body in
  closed form — the hidden-axis coordinate is 0 (the accumulator is cleared) or 31 (the accumulator is copied out) —
  and where the output window is idle.
-/
import proofs.«172588_j28905129902663_2_alg».proof.Proof.Gen.KernelIdeal.Launch
import proofs.«172588_j28905129902663_2_alg».proof.Proof.Gen.KernelIdeal.Skeleton
import proofs.«172588_j28905129902663_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: the launch contents after the reshape of `x` and the three
    roundings. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, the final reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The accumulator is cleared: the hidden-axis coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The accumulator is copied to the output block: the hidden-axis coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last hidden block the body stores nothing into the output window, and the window is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last hidden block the body stores the output window. -/
theorem liveAt0_4 : ∀ t : Fin cfg0.N, cond0_1 (grid0.coords t) → cfg0.idle 4 (grid0.coords t) = false := by decide +kernel

/-! ## The staging memrefs at a point -/

abbrev VO0_4 : View sig .tc .vmem S512x3072 .f32 := (Memref.whole cc0_stg4_0 : Memref sig .tc .vmem S512x3072 .f32).view
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S512x3072 .f32 := Memref.whole cc0_scratch0
abbrev VS0_0 : View sig .tc .vmem S512x3072 .f32 := scM0_0.view

/-- What the launch hands the body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at the first hidden block of a row tile: the accumulator is cleared, then the block's product is added; nothing is stored to the output block.
-/
import proofs.«172588_j28905129902663_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs: the four input blocks are left as they were; the pieces
    stored into the accumulator (`LS0`) and into the output block (`L4`) are what the run finds. -/
noncomputable def kernelRun0_A (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) :
    Σ' (L4 : List (View.Piece (Elt F) S512x3072 .f32)), { LS0 : List (View.Piece (Elt F) S512x3072 .f32) //
      ∀ (xi4 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The body at a middle hidden block: the block's product is added to the accumulator the point before left; nothing is stored to the output block.
-/
import proofs.«172588_j28905129902663_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs: the four input blocks are left as they were; the pieces
    stored into the accumulator (`LS0`) and into the output block (`L4`) are what the run finds. -/
noncomputable def kernelRun0_B (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) :
    Σ' (L4 : List (View.Piece (Elt F) S512x3072 .f32)), { LS0 : List (View.Piece (Elt F) S512x3072 .f32) //
      ∀ (xi4 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The body at the last hidden block: the block's product is added to the accumulator, and the accumulator is copied to the output block.
-/
import proofs.«172588_j28905129902663_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs: the four input blocks are left as they were; the pieces
    stored into the accumulator (`LS0`) and into the output block (`L4`) are what the run finds. -/
noncomputable def kernelRun0_C (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) :
    Σ' (L4 : List (View.Piece (Elt F) S512x3072 .f32)), { LS0 : List (View.Piece (Elt F) S512x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, ?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Frame.lean ====
/-
  What the accumulator and the output block hold after each grid point, the proof data of the pipeline, and the body's
  obligation at every point.  A row tile's 32 hidden blocks are consecutive points: at the first the accumulator is
  cleared and the block's product added, at the others the product is added to what the point before left, and at the
  last the sum is also copied to the output block, which is written back there and only there.
-/
import proofs.«172588_j28905129902663_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's staging buffer: its pieces read back (none: the window is idle there, and nothing consults this). -/
def out0_A_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) : Vec F S512x3072 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores cover the accumulator. -/
theorem scover0_A_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) (y : S512x3072.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x3072.size (by sl_kernel_rfl) y

/-- What case A leaves in the accumulator: its pieces read back. -/
def sout0_A_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) : Vec F S512x3072 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer: its pieces read back (none: the window is idle there, and nothing consults this). -/
def out0_B_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores cover the accumulator. -/
theorem scover0_B_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) (y : S512x3072.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x3072.size (by sl_kernel_rfl) y

/-- What case B leaves in the accumulator: its pieces read back. -/
def sout0_B_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case C leaves in the output block's staging buffer: its pieces read back. -/
def out0_C_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's one store covers the output block. -/
theorem cover0_C_4 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) (y : S512x3072.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x3072.size (by sl_kernel_rfl) y

/-- Case C's stores cover the accumulator. -/
theorem scover0_C_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) (y : S512x3072.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x3072.size (by sl_kernel_rfl) y

/-- What case C leaves in the accumulator: its pieces read back. -/
def sout0_C_0 (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) : Vec F S512x3072 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the buffers hold after each point -/

/-- After the body at position `n`: the output block's staging buffer and the accumulator. -/
def outsAt0 (c : Dev nD) : (n : ℕ) → n < cfg0.N → Vec F S512x3072 .f32 × Vec F S512x3072 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; each input's buffer at its block; the output's at `outsAt0`; the fused weight's
    share halved between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the closed forms of the two conditions say which case the point is in; the invariant hands
    the body the accumulator at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have h1 : ¬t.val % 32 = 31 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 32 = 31
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.Around.lean ====
/-
  The launch of the fused feed-forward kernel: two of its input windows — the "up" columns and the "gate" columns —
  read ONE array, the rounded fused weight, so its full share is dealt between them at entry (a left and a right half)
  and joined again at exit; around the region the host reshapes the activations and rounds the three arguments before,
  and reshapes the kernel's result after.  The run ends with every window's array at what the write-backs leave and every
  other unscoped buffer at what the final reshape leaves.
-/
import proofs.«172588_j28905129902663_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows -/

/-- The distinct buffers behind the five windows' arrays, each whole, listed. -/
theorem arrBufs0_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_v1) ↦{fullShare} A main_v1) ∗ (((c : Thread nD τ).loc main_v2) ↦{fullShare} A main_v2)
          ∗ (((c : Thread nD τ).loc main_v3) ↦{fullShare} A main_v3) ∗ (((c : Thread nD τ).loc main_v4) ↦{fullShare} A main_v4)) := by
  unfold Pipeline.arrBufs
  exact bigSep_eq_bigSepL_of_eq [main_v1, main_v2, main_v3, main_v4] (by decide) (by decide) _

/-- The windows' arrays at the contents `A` gives the buffers behind them, window by window at its share. -/
theorem arrays0_eq {c : Dev nD} (dat : Dat τ (Elt F) Unit ℕ (UR sig nD τ) ℕ cfg0 c) (A : (b : Ref sig .tc) → Buf (Elt F) ((c : Thread nD τ).loc b)) :
    (dat.arrays (fun w => A (Pipeline.arrRef spec0 w)) : sProp 𝕄)
      = iprop((((c : Thread nD τ).loc main_v1) ↦{dat.share 0} A main_v1) ∗ (((c : Thread nD τ).loc main_v2) ↦{dat.share 1} A main_v2)
          ∗ (((c : Thread nD τ).loc main_v2) ↦{dat.share 2} A main_v2) ∗ (((c : Thread nD τ).loc main_v3) ↦{dat.share 3} A main_v3)
          ∗ (((c : Thread nD τ).loc main_v4) ↦{dat.share 4} A main_v4)) := by
  unfold Dat.arrays
  rw [bigSep_W0]
  rw [(arr_whole0 0).set_eq_univ, (arr_whole0 1).set_eq_univ, (arr_whole0 3).set_eq_univ, (arr_whole0 4).set_eq_univ]

section Shares

variable {c : Dev nD} (dat : Dat τ (Elt F) Unit ℕ (UR sig nD τ) ℕ cfg0 c)
  (hq0 : dat.q 0 = fullShare) (hq1 : dat.q 1 = fullShare.left) (hq2 : dat.q 2 = fullShare.right) (hq3 : dat.q 3 = fullShare)

include hq0 in
theorem share0 : dat.share 0 = fullShare := by unfold Dat.share; exact hq0
include hq1 in
theorem share1 : dat.share 1 = fullShare.left := by unfold Dat.share; exact hq1
include hq2 in
theorem share2 : dat.share 2 = fullShare.right := by unfold Dat.share; exact hq2
include hq3 in
theorem share3 : dat.share 3 = fullShare := by unfold Dat.share; exact hq3
theorem share4 : dat.share 4 = fullShare := by unfold Dat.share; rfl

include hq0 hq1 hq2 hq3 in
/-- Entry: the four buffers whole make the five windows' arrays, the fused weight's share halved. -/
theorem arrays_deal (A : (b : Ref sig .tc) → Buf (Elt F) ((c : Thread nD τ).loc b)) :
    (Pipeline.arrBufs (Ix := Unit) (Name := ℕ) (U := UR sig nD τ) (Lvl := ℕ) spec0 c A : sProp 𝕄) ⊢ dat.arrays (fun w => A (Pipeline.arrRef spec0 w)) := by
  rw [arrBufs0_eq, arrays0_eq, share0 dat hq0, share1 dat hq1, share2 dat hq2, share3 dat hq3, share4 dat]
  iintro ⟨H1, H2, H3, H4⟩
  ihave H2' := (pointsTo_share (PosShare.mem_left_op_right fullShare)).1 $$ H2
  icases H2' with ⟨H2a, H2b⟩
  isplitl [H1]; · iexact H1
  isplitl [H2a]; · iexact H2a
  isplitl [H2b]; · iexact H2b
  isplitl [H3]; · iexact H3
  iexact H4

include hq0 hq1 hq2 hq3 in
/-- Exit: the two halves of the fused weight's share join. -/
theorem arrays_gather (A : (b : Ref sig .tc) → Buf (Elt F) ((c : Thread nD τ).loc b)) :
    (dat.arrays (fun w => A (Pipeline.arrRef spec0 w)) : sProp 𝕄) ⊢ Pipeline.arrBufs (Ix := Unit) (Name := ℕ) (U := UR sig nD τ) (Lvl := ℕ) spec0 c A := by
  rw [arrBufs0_eq, arrays0_eq, share0 dat hq0, share1 dat hq1, share2 dat hq2, share3 dat hq3, share4 dat]
  iintro ⟨H1, H2a, H2b, H3, H4⟩
  ihave H2 := (pointsTo_share (PosShare.mem_left_op_right fullShare)).2 $$ [H2a H2b]
  · isplitl [H2a]; · iexact H2a
    iexact H2b
  isplitl [H1]; · iexact H1
  isplitl [H2]; · iexact H2
  isplitl [H3]; · iexact H3
  iexact H4

end Shares

/-! ## The final reshape, after the region -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The final reshape writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- All the unscoped buffers held whole are the buffers behind the windows' arrays and the rest. -/
theorem heldW (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs 0 winFacts₀0.arr_unscoped c _

section Run

variable (dats : (p : Fin 1) → (c : Dev nD) → Dat τ (Elt F) Unit ℕ (UR sig nD τ) ℕ (cfgs p) c)

open Classical in
/-- The buffers' contents when the region is left: the kernel's result array at what the write-backs made of it, every
    other buffer as the region found it. -/
def Wx (c : Dev nD) : Valuation τ sig (Elt F) :=
  Function.update (V0 m c) (Proc.devRef .tc main_v4) ((dats 0 c).arrAt 4 cfg0.N)

/-- The buffers' contents at the end: after the final reshape. -/
abbrev afterAll (c : Dev nD) (b : Ref sig .tc) : Buf (Elt F) ((c : Thread nD τ).loc b) :=
  StableHlo.after (List.flatten [hostOps1]) (Wx m dats c) (Proc.devRef .tc b)

variable (hq0 : ∀ c, (dats 0 c).q 0 = fullShare) (hq1 : ∀ c, (dats 0 c).q 1 = fullShare.left)
  (hq2 : ∀ c, (dats 0 c).q 2 = fullShare.right) (hq3 : ∀ c, (dats 0 c).q 3 = fullShare)
  (hA : ∀ c w, (dats 0 c).A w = V m c (Pipeline.arrRef spec0 w))

include hA in
theorem Wx_arr (c : Dev nD) (w : Fin cfg0.W) :
    Wx m dats c (Proc.devRef .tc (Pipeline.arrRef spec0 w)) = (dats 0 c).arrAt w cfg0.N := by
  unfold Wx
  fin_cases w
  · exact (Function.update_of_ne (StableHlo.devRef_ne_of_ne (by decide)) _ _).trans ((hA c 0).symm.trans ((dats 0 c).arrAt_in 0 rfl _).symm)
  · exact (Function.update_of_ne (StableHlo.devRef_ne_of_ne (by decide)) _ _).trans ((hA c 1).symm.trans ((dats 0 c).arrAt_in 1 rfl _).symm)
  · exact (Function.update_of_ne (StableHlo.devRef_ne_of_ne (by decide)) _ _).trans ((hA c 2).symm.trans ((dats 0 c).arrAt_in 2 rfl _).symm)
  · exact (Function.update_of_ne (StableHlo.devRef_ne_of_ne (by decide)) _ _).trans ((hA c 3).symm.trans ((dats 0 c).arrAt_in 3 rfl _).symm)
  · exact Function.update_self _ _ _

theorem Wx_rest (c : Dev nD) (b : Ref sig .tc) (hb : b ≠ main_v4) :
    Wx m dats c (Proc.devRef .tc b) = V m c b := by
  unfold Wx
  exact Function.update_of_ne (StableHlo.devRef_ne_of_ne hb) _ _

include hA in
theorem afterAll_arr (c : Dev nD) (w : Fin cfg0.W) :
    afterAll m dats c (Pipeline.arrRef spec0 w) = (dats 0 c).arrAt w cfg0.N := by
  rw [show afterAll m dats c (Pipeline.arrRef spec0 w) = Wx m dats c (Proc.devRef .tc (Pipeline.arrRef spec0 w)) from
    StableHlo.after_of_forall_not_mem _ _ fun op hop => by
      obtain ⟨ops, hops, hop⟩ := List.mem_flatten.mp hop
      exact sfx_keeps ops hops op hop w]
  exact Wx_arr m dats hA c w

include hq0 hq1 hq2 hq3 hA in
set_option backward.isDefEq.respectTransparency.types false in
/-- From the region's exit the final reshape runs, and hands back the arrays and the other unscoped buffers at the
    contents after it. -/
theorem tail_run (c : Dev nD) (Q' : PUnit → sProp 𝕄) :
    iprop((iprop((dats 0 c).arrays ((dats 0 c).arrAt · cfg0.N) ∗ Pipeline.unscopedRestP Pipeline.Prefetch.none spec0 c (afterAll m dats c)) -∗ Q' ⟨⟩)
        ∗ boundary (c.tc : Thread nD τ) ∗ (dats 0 c).arrays ((dats 0 c).arrAt · cfg0.N) ∗ Pipeline.unscopedRestP Pipeline.Prefetch.none spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  have e1 : (fun w => (dats 0 c).arrAt w cfg0.N) = fun w => (fun b => Wx m dats c (Proc.devRef .tc b)) (Pipeline.arrRef spec0 w) :=
    funext fun w => (Wx_arr m dats hA c w).symm
  have e2 : (Pipeline.unscopedRest spec0 c (V m c) : sProp 𝕄) = Pipeline.unscopedRest spec0 c (fun b => Wx m dats c (Proc.devRef .tc b)) := by
    unfold Pipeline.unscopedRest
    exact bigSep_congr fun b hb => by
      dsimp only
      rw [Wx_rest m dats c b fun e => (Finset.mem_sdiff.mp hb).2 (Finset.mem_image.mpr ⟨4, Finset.mem_univ _, e ▸ rfl⟩)]
  have hdeal : (Pipeline.arrBufs (Ix := Unit) (Name := ℕ) (U := UR sig nD τ) (Lvl := ℕ) spec0 c (afterAll m dats c) : sProp 𝕄)
      ⊢ (dats 0 c).arrays ((dats 0 c).arrAt · cfg0.N) := by
    have h := arrays_deal (dats 0 c) (hq0 c) (hq1 c) (hq2 c) (hq3 c) (afterAll m dats c)
    rwa [show (fun w => afterAll m dats c (Pipeline.arrRef spec0 w)) = fun w => (dats 0 c).arrAt w cfg0.N from
      funext fun w => afterAll_arr m dats hA c w] at h
  have hgather : ((dats 0 c).arrays ((dats 0 c).arrAt · cfg0.N) : sProp 𝕄)
      ⊢ Pipeline.arrBufs (Ix := Unit) (Name := ℕ) (U := UR sig nD τ) (Lvl := ℕ) spec0 c (fun b => Wx m dats c (Proc.devRef .tc b)) := by
    have h := arrays_gather (dats 0 c) (hq0 c) (hq1 c) (hq2 c) (hq3 c) (fun b => Wx m dats c (Proc.devRef .tc b))
    rwa [← e1] at h
  rw [Pipeline.unscopedRestP_none, Pipeline.unscopedRestP_none, e2, ← List.append_nil ([hostOps1].map StableHlo.seq)]
  iintro ⟨Hk, Hb, Ha, Hz⟩
  ihave Hab := hgather $$ Ha
  iapply (Pipeline.wp_seqs_then (fun q => Cfg.toPCfg (Val := Elt F) (cfgs q)) defs₀ Variants.none c (Pipeline.ucRefs τ sig) [] [hostOps1] sfx_sub sfx_fresh (Wx m dats c)) $$ [Hb Hab Hz]
  · isplitl [Hb]; · iexact Hb
    rw [heldW]
    isplitl [Hab]; · iexact Hab
    iexact Hz
  iintro Hb
  rw [Pipeline.chain_nil, wp_pure, heldW]
  imodintro
  iapply Hk
  icases Hb with ⟨-, Ha, Hz⟩
  isplitl [Ha]
  · iapply hdeal; iexact Ha
  iexact Hz

include hq0 hq1 hq2 hq3 hA in
set_option backward.isDefEq.respectTransparency.types false in
/-- THE RUN: every weakly fair execution of the program terminates, and every unscoped buffer that is no window's array
    ends at the contents after the final reshape. -/
theorem run_around
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      ∀ b ∈ Pipeline.restRefsP sig Pipeline.Prefetch.none spec0, r.2.mem ((c.tc : Thread nD τ).loc b) = afterAll m dats c b) := by
  classical
  exact Pipeline.θ_run_region_pf_tail (fun q => Cfg.toPCfg (Val := Elt F) (cfgs q)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      have h := arrays_deal (dats 0 c) (hq0 c) (hq1 c) (hq2 c) (hq3 c) (V m c)
      rwa [show (fun w => V m c (Pipeline.arrRef spec0 w)) = fun w => (dats 0 c).arrAt w 0 from funext fun w => (hA c w).symm] at h)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (afterAll m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq0 hq1 hq2 hq3 hA c Q')
    (QY := fun c s => ∀ b ∈ Pipeline.restRefsP sig Pipeline.Prefetch.none spec0, s.mem ((c.tc : Thread nD τ).loc b) = afterAll m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (afterAll m dats c) s')
      isplitl [HU] <;> iassumption)
    (hQ := fun s h c => (h c).2.2)

end Run

end Cert.KernelIdeal.Hand

end
-- ==== Proof.KI.Main.lean ====
/-
  The run of the fused feed-forward program with its proof data: the program terminates, the three arguments end as
  launched, and the result is the final reshape of what the write-backs leave in the kernel's result array.
-/
import proofs.«172588_j28905129902663_2_alg».proof.Proof.KI.Frame
import proofs.«172588_j28905129902663_2_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN at the kernel's proof data. -/
theorem run_main : θ_run defs (onTc (τ := τ) (main (F := F))) ⟨m, fun _ => 0, ρ⟩ (fun r => ∀ c : Dev nD,
      ∀ b ∈ Pipeline.restRefsP sig Pipeline.Prefetch.none spec0, r.2.mem ((c.tc : Thread nD τ).loc b) = afterAll m (dats m) c b) :=
  run_around m ρ (dats m) (fun _ => rfl) (fun _ => rfl) (fun _ => rfl) (fun _ => rfl) (A_eq m)
    (fun c => (body_obligation m c).loose) (fun _ _ => rfl) (hin m) (hout m)

theorem mem_rest_arg0 : main_arg0 ∈ Pipeline.restRefsP sig Pipeline.Prefetch.none spec0 := by decide
theorem mem_rest_arg1 : main_arg1 ∈ Pipeline.restRefsP sig Pipeline.Prefetch.none spec0 := by decide
theorem mem_rest_arg2 : main_arg2 ∈ Pipeline.restRefsP sig Pipeline.Prefetch.none spec0 := by decide
theorem mem_rest_v5 : main_v5 ∈ Pipeline.restRefsP sig Pipeline.Prefetch.none spec0 := by decide

/-- Neither the region nor the final reshape writes argument 0. -/
theorem afterAll_arg0 (c : Dev nD) : afterAll m (dats m) c main_arg0 = m ((c : Thread nD τ).loc main_arg0) := by
  rw [show afterAll m (dats m) c main_arg0 = Wx m (dats m) c (Proc.devRef .tc main_arg0) from
    StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wx_rest m (dats m) c main_arg0 (by decide)]
  exact V_main_arg0 m c

/-- Neither the region nor the final reshape writes argument 1. -/
theorem afterAll_arg1 (c : Dev nD) : afterAll m (dats m) c main_arg1 = m ((c : Thread nD τ).loc main_arg1) := by
  rw [show afterAll m (dats m) c main_arg1 = Wx m (dats m) c (Proc.devRef .tc main_arg1) from
    StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wx_rest m (dats m) c main_arg1 (by decide)]
  exact V_main_arg1 m c

/-- Neither the region nor the final reshape writes argument 2. -/
theorem afterAll_arg2 (c : Dev nD) : afterAll m (dats m) c main_arg2 = m ((c : Thread nD τ).loc main_arg2) := by
  rw [show afterAll m (dats m) c main_arg2 = Wx m (dats m) c (Proc.devRef .tc main_arg2) from
    StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wx_rest m (dats m) c main_arg2 (by decide)]
  exact V_main_arg2 m c

/-- The result is the kernel's result array, as the write-backs left it, with a leading unit axis. -/
theorem afterAll_v5 (c : Dev nD) :
    afterAll m (dats m) c main_v5 = shapeCast S1x4096x3072 ((dats m 0 c).arrAt 4 cfg0.N) shapeCasts_S4096x3072_S1x4096x3072 := by
  have e : afterAll m (dats m) c main_v5 = shapeCast S1x4096x3072 (Wx m (dats m) c (Proc.devRef .tc main_v4)) shapeCasts_S4096x3072_S1x4096x3072 := by
    show StableHlo.after (List.flatten [hostOps1]) (Wx m (dats m) c) (Proc.devRef .tc main_v5) = _
    simp only [hostOps1, List.flatten_cons, List.flatten_nil, List.append_nil]
    after_results
    rfl
  rw [e]
  exact congrArg (fun a => shapeCast S1x4096x3072 a shapeCasts_S4096x3072_S1x4096x3072) (Wx_arr m (dats m) (A_eq m) c 4)

/-- THE FRAME: the program terminates and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 mem_rest_arg0).trans (afterAll_arg0 m c),
    (h c main_arg1 mem_rest_arg1).trans (afterAll_arg1 m c), (h c main_arg2 mem_rest_arg2).trans (afterAll_arg2 m c)⟩) (run_main m ρ)

/-- The run with the result named. -/
theorem run_value : θ_run defs (onTc (τ := τ) (main (F := F))) ⟨m, fun _ => 0, ρ⟩ (fun r => ∀ c : Dev nD,
      r.2.mem ((c.tc : Thread nD τ).loc main_v5) = shapeCast S1x4096x3072 ((dats m 0 c).arrAt 4 cfg0.N) shapeCasts_S4096x3072_S1x4096x3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v5 mem_rest_v5).trans (afterAll_v5 m c), (h c main_arg0 mem_rest_arg0).trans (afterAll_arg0 m c),
    (h c main_arg1 mem_rest_arg1).trans (afterAll_arg1 m c), (h c main_arg2 mem_rest_arg2).trans (afterAll_arg2 m c)⟩) (run_main m ρ)

end Cert.KernelIdeal.Hand

end
-- ==== Proof.KI.Pieces.lean ====
/-
  What each case of the body leaves in the accumulator and in the output block, read back as one value: the block
  `k0_pay2` of the four input blocks and of what the accumulator held (the zero block `k0_pay1` at a row tile's first
  hidden block, where the body has just cleared it).  Each case's stores are whole-buffer stores at offsets zero, so the
  pieces' canonical value is the last store's payload, a whole-buffer load is the buffer's contents, and a load of a
  buffer just stored whole is the payload stored.
-/
import proofs.«172588_j28905129902663_2_alg».proof.Proof.KI.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every load and store of the body: zero on both axes. -/
theorem hz : (![0, 0] : Fin 2 → Nat) = fun _ => 0 := funext fun a => by fin_cases a <;> rfl

/-- At a row tile's first hidden block the body stores the zero block into the accumulator, reads it back and stores
    the block of the four inputs and that zero block. -/
theorem sout0_A_0_eq (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : cond0_0 i) (hc1 : ¬cond0_1 i)
    (x0 : Vec F S512x3072 .bf16) (x1 : Vec F S3072x256 .bf16) (x2 : Vec F S3072x256 .bf16) (x3 : Vec F S256x3072 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x3072) hz, View.readCov_unit_zero (S := S512x3072) _ hz]
  simp only [View.readAt_eq_ld, harg2.read_unread, harg3.read_unread, harg4.read_unread, harg5.read_unread, harg6.read_unread, harg7.read_unread, View.ld_unit_zero (S := S512x3072) hz, View.ld_unit_zero (S := S3072x256) hz, View.ld_unit_zero (S := S256x3072) hz]

/-- At a hidden block that is neither first nor last the body reads the accumulator and stores the block of the four
    inputs and what it read. -/
theorem sout0_B_0_eq (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : ¬cond0_1 i)
    (x0 : Vec F S512x3072 .bf16) (x1 : Vec F S3072x256 .bf16) (x2 : Vec F S3072x256 .bf16) (x3 : Vec F S256x3072 .bf16) (xs0 : Vec F S512x3072 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg6.read_unread, harg7.read_unread, View.ld_unit_zero (S := S512x3072) hz, View.ld_unit_zero (S := S3072x256) hz, View.ld_unit_zero (S := S256x3072) hz]

/-- At a row tile's last hidden block the accumulator is left the same way. -/
theorem sout0_C_0_eq (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S512x3072) hz, View.ld_unit_zero (S := S3072x256) hz, View.ld_unit_zero (S := S256x3072) hz]

/-- There the body then reads the accumulator back and stores it into the output block: the same value. -/
theorem out0_C_4_eq (c : Dev nD) (i : grid0.Coords) (arg2 : Memref sig .tc .vmem S512x3072 .bf16) (harg2 : arg2.IsWhole) (arg3 : Memref sig .tc .vmem S3072x256 .bf16) (harg3 : arg3.IsWhole) (arg4 : Memref sig .tc .vmem S3072x256 .bf16) (harg4 : arg4.IsWhole) (arg5 : Memref sig .tc .vmem S256x3072 .bf16) (harg5 : arg5.IsWhole) (arg6 : Memref sig .tc .vmem S512x3072 .f32) (harg6 : arg6.IsWhole) (arg7 : Memref sig .tc .vmem S512x3072 .f32) (harg7 : arg7.IsWhole) (hc0 : ¬cond0_0 i) (hc1 : cond0_1 i)
    (x0 : Vec F S512x3072 .bf16) (x1 : Vec F S3072x256 .bf16) (x2 : Vec F S3072x256 .bf16) (x3 : Vec F S256x3072 .bf16) (xs0 : Vec F S512x3072 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x3072) _ hz]
  simp only [View.readAt_eq_ld, harg2.read_unread, harg3.read_unread, harg4.read_unread, harg5.read_unread, harg6.read_unread, harg7.read_unread, View.ld_unit_zero (S := S512x3072) hz, View.ld_unit_zero (S := S3072x256) hz, View.ld_unit_zero (S := S256x3072) hz]

end Cert.KernelIdeal.Hand

end
-- ==== Proof.KI.Blocks.lean ====
/-
  The four input windows' blocks at a grid point, read at an index, on the extended reals.  The grid is 8 row tiles by
  32 hidden blocks, so point `t` is row tile `t / 32` and hidden block `t % 32`.  The arrays the windows read are the
  arguments after the host's reshape of the activations to [4096, 3072] and the three narrowings to bf16, which are the
  identity on the extended reals; a block's coordinate in its array is the block index times the block size plus the
  coordinate inside the block.  So the activations' block holds rows `512 (t / 32) + p`, the "up" block columns
  `256 (t % 32) + j` of the fused weight, the "gate" block columns `8192 + 256 (t % 32) + j`, and the second weight's
  block rows `256 (t % 32) + j`.
-/
import proofs.«172588_j28905129902663_2_alg».proof.Proof.KI.Base
import Idealize.ShloMosaic.Lib.ValueIdx
import Idealize.ShloMosaic.Lib.ValueLayout
import Idealize.ShloMosaic.Lib.StableHlo.Run
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The arrays the windows read -/

/-- The activations' array as the region finds it: the argument reshaped to [4096, 3072], then narrowed. -/
theorem V_main_v1 (c : Dev nD) : @Eq (S4096x3072.Idx → EReal) (V m c main_v1)
    (truncf (F := Ideal) .bf16 (shapeCast S4096x3072 (m ((c : Thread nD τ).loc main_arg0) : FVec Ideal S1x4096x3072 .f32) shapeCasts_S1x4096x3072_S4096x3072 : FVec Ideal S4096x3072 .f32) bitsLt_bf16_f32) := by
  dsimp only [V, V0, hostOps0]
  simp only [List.flatten_cons, List.flatten_nil, List.append_nil]
  after_results
  rfl

/-- The fused weight's array as the region finds it: the argument narrowed. -/
theorem V_main_v2 (c : Dev nD) : @Eq (S3072x16384.Idx → EReal) (V m c main_v2)
    (truncf (F := Ideal) .bf16 (m ((c : Thread nD τ).loc main_arg1) : FVec Ideal S3072x16384 .f32) bitsLt_bf16_f32) := by
  dsimp only [V, V0, hostOps0]
  simp only [List.flatten_cons, List.flatten_nil, List.append_nil]
  after_results

/-- The second weight's array as the region finds it: the argument narrowed. -/
theorem V_main_v3 (c : Dev nD) : @Eq (S8192x3072.Idx → EReal) (V m c main_v3)
    (truncf (F := Ideal) .bf16 (m ((c : Thread nD τ).loc main_arg2) : FVec Ideal S8192x3072 .f32) bitsLt_bf16_f32) := by
  dsimp only [V, V0, hostOps0]
  simp only [List.flatten_cons, List.flatten_nil, List.append_nil]
  after_results

/-! ## The windows' block indices over the grid -/

/-- The activations' block follows the row tile. -/
theorem index0_0 : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)

/-- The "up" block follows the hidden block. -/
theorem index0_1 : ∀ t : Fin cfg0.N, win0_1.index t (0 : Fin 2) = 0 ∧ win0_1.index t (1 : Fin 2) = t.val % 32 :=
  (by decide +kernel : ∀ t : Fin grid0.N, win0_1.index t (0 : Fin 2) = 0 ∧ win0_1.index t (1 : Fin 2) = t.val % 32)

/-- The "gate" block is 32 blocks of columns further on. -/
theorem index0_2 : ∀ t : Fin cfg0.N, win0_2.index t (0 : Fin 2) = 0 ∧ win0_2.index t (1 : Fin 2) = 32 + t.val % 32 :=
  (by decide +kernel : ∀ t : Fin grid0.N, win0_2.index t (0 : Fin 2) = 0 ∧ win0_2.index t (1 : Fin 2) = 32 + t.val % 32)

/-- The second weight's block of rows follows the hidden block. -/
theorem index0_3 : ∀ t : Fin cfg0.N, win0_3.index t (0 : Fin 2) = t.val % 32 ∧ win0_3.index t (1 : Fin 2) = 0 :=
  (by decide +kernel : ∀ t : Fin grid0.N, win0_3.index t (0 : Fin 2) = t.val % 32 ∧ win0_3.index t (1 : Fin 2) = 0)

/-! ## The blocks at an index -/

/-- The activations' block at point `t`: rows `512 (t / 32) + p` of `x`. -/
theorem iblk0_apply (c : Dev nD) (t : Fin cfg0.N) (p : Fin 512) (k : Fin 3072) (hb : t.val / 32 * 512 + p.val < 4096) :
    (iblk m c 0 t : S512x3072.Idx → EReal) (ix2 p k)
      = m ((c : Thread nD τ).loc main_arg0) (ix3 (0 : Fin 1) ⟨t.val / 32 * 512 + p.val, hb⟩ k) := by
  unfold iblk
  rw [View.read_apply]
  show V m c main_v1 (((cfg0.win 0).blk t).view.emb (ix2 p k)) = _
  rw [V_main_v1, truncf_apply]
  have e : ((cfg0.win 0).blk t).view.emb (ix2 p k) = (ix2 (⟨t.val / 32 * 512 + p.val, hb⟩ : Fin 4096) k : S4096x3072.Idx) := by
    funext a; apply Fin.ext
    match a with
    | ⟨0, _⟩ => show win0_0.index t (0 : Fin 2) * 512 + 1 * p.val = t.val / 32 * 512 + p.val; rw [(index0_0 t).1]; omega
    | ⟨1, _⟩ => show win0_0.index t (1 : Fin 2) * 3072 + 1 * k.val = k.val; rw [(index0_0 t).2]; omega
  rw [e]
  exact shapeCast_1ab_ab_apply _ _ _ _

/-- The "up" block at point `t`: columns `256 (t % 32) + j` of `w13`. -/
theorem iblk1_apply (c : Dev nD) (t : Fin cfg0.N) (k : Fin 3072) (j : Fin 256) (hb : t.val % 32 * 256 + j.val < 16384) :
    (iblk m c 1 t : S3072x256.Idx → EReal) (ix2 k j)
      = m ((c : Thread nD τ).loc main_arg1) (ix2 k ⟨t.val % 32 * 256 + j.val, hb⟩) := by
  unfold iblk
  rw [View.read_apply]
  show V m c main_v2 (((cfg0.win 1).blk t).view.emb (ix2 k j)) = _
  rw [V_main_v2, truncf_apply]
  have e : ((cfg0.win 1).blk t).view.emb (ix2 k j) = (ix2 k (⟨t.val % 32 * 256 + j.val, hb⟩ : Fin 16384) : S3072x16384.Idx) := by
    funext a; apply Fin.ext
    match a with
    | ⟨0, _⟩ => show win0_1.index t (0 : Fin 2) * 3072 + 1 * k.val = k.val; rw [(index0_1 t).1]; omega
    | ⟨1, _⟩ => show win0_1.index t (1 : Fin 2) * 256 + 1 * j.val = t.val % 32 * 256 + j.val; rw [(index0_1 t).2]; omega
  rw [e]

/-- The "gate" block at point `t`: columns `8192 + 256 (t % 32) + j` of `w13`. -/
theorem iblk2_apply (c : Dev nD) (t : Fin cfg0.N) (k : Fin 3072) (j : Fin 256) (hb : 8192 + t.val % 32 * 256 + j.val < 16384) :
    (iblk m c 2 t : S3072x256.Idx → EReal) (ix2 k j)
      = m ((c : Thread nD τ).loc main_arg1) (ix2 k ⟨8192 + t.val % 32 * 256 + j.val, hb⟩) := by
  unfold iblk
  rw [View.read_apply]
  show V m c main_v2 (((cfg0.win 2).blk t).view.emb (ix2 k j)) = _
  rw [V_main_v2, truncf_apply]
  have e : ((cfg0.win 2).blk t).view.emb (ix2 k j) = (ix2 k (⟨8192 + t.val % 32 * 256 + j.val, hb⟩ : Fin 16384) : S3072x16384.Idx) := by
    funext a; apply Fin.ext
    match a with
    | ⟨0, _⟩ => show win0_2.index t (0 : Fin 2) * 3072 + 1 * k.val = k.val; rw [(index0_2 t).1]; omega
    | ⟨1, _⟩ => show win0_2.index t (1 : Fin 2) * 256 + 1 * j.val = 8192 + t.val % 32 * 256 + j.val; rw [(index0_2 t).2]; omega
  rw [e]

/-- The second weight's block at point `t`: rows `256 (t % 32) + j` of `w2`. -/
theorem iblk3_apply (c : Dev nD) (t : Fin cfg0.N) (j : Fin 256) (d : Fin 3072) (hb : t.val % 32 * 256 + j.val < 8192) :
    (iblk m c 3 t : S256x3072.Idx → EReal) (ix2 j d)
      = m ((c : Thread nD τ).loc main_arg2) (ix2 ⟨t.val % 32 * 256 + j.val, hb⟩ d) := by
  unfold iblk
  rw [View.read_apply]
  show V m c main_v3 (((cfg0.win 3).blk t).view.emb (ix2 j d)) = _
  rw [V_main_v3, truncf_apply]
  have e : ((cfg0.win 3).blk t).view.emb (ix2 j d) = (ix2 (⟨t.val % 32 * 256 + j.val, hb⟩ : Fin 8192) d : S8192x3072.Idx) := by
    funext a; apply Fin.ext
    match a with
    | ⟨0, _⟩ => show win0_3.index t (0 : Fin 2) * 256 + 1 * j.val = t.val % 32 * 256 + j.val; rw [(index0_3 t).1]; omega
    | ⟨1, _⟩ => show win0_3.index t (1 : Fin 2) * 3072 + 1 * d.val = d.val; rw [(index0_3 t).2]; omega
  rw [e]

end Cert.KernelIdeal.Hand

end
-- ==== Proof.Spec.lean ====
/-
  The function both programs compute, on the extended reals.

  For a row `s` of the activations `x` [1, 4096, 3072] and a column `f` of the fused weight `w13` [3072, 16384],
  `proj x w13 s f` is their inner product over the 3072 features.  Column `f < 8192` is the "up" value and column
  `8192 + f` the "gate" value of hidden unit `f`; the hidden activation is the gate times its logistic times the
  up value, clamped to [-65504, 65504]; the output at (s, d) is the inner product over the 8192 hidden units of
  the activations of row `s` with column `d` of `w2` [8192, 3072].
-/
import Idealize.ShloMosaic.PureOps.Ideal
import Idealize.ShloMosaic.Lib.ValueIdx

noncomputable section

namespace Cert.Spec

open Idealize.ShloMosaic Idealize.ShloMosaic.ValueIdx

abbrev SX : Shape := ⟨3, ![1, 4096, 3072]⟩
abbrev SW13 : Shape := ⟨2, ![3072, 16384]⟩
abbrev SW2 : Shape := ⟨2, ![8192, 3072]⟩

/-- Row `s` of `x` against column `f` of `w13`. -/
def proj (x : SX.Idx → EReal) (w13 : SW13.Idx → EReal) (s : Fin 4096) (f : Fin 16384) : EReal :=
  ∑ k : Fin 3072, x (ix3 (0 : Fin 1) s k) * w13 (ix2 k f)

/-- The clamp's bounds, -65504 and 65504, as the binary32 words both programs spell. -/
def lo : EReal := Ideal.ofBits .f32 0xC77FE000#32
def hi : EReal := Ideal.ofBits .f32 0x477FE000#32

/-- The hidden activation from the up value `u` and the gate value `g`: `g · logistic g · u`, clamped. -/
def gated (u g : EReal) : EReal := min hi (max lo ((g * Ideal.logistic g) * u))

/-- Hidden unit `f`'s up column and gate column of `w13`. -/
def upCol (f : Fin 8192) : Fin 16384 := ⟨f.val, by omega⟩
def gateCol (f : Fin 8192) : Fin 16384 := ⟨8192 + f.val, by omega⟩

/-- The activation of hidden unit `f` on row `s`. -/
def act (x : SX.Idx → EReal) (w13 : SW13.Idx → EReal) (s : Fin 4096) (f : Fin 8192) : EReal :=
  gated (proj x w13 s (upCol f)) (proj x w13 s (gateCol f))

/-- The output at row `s`, feature `d`. -/
def out (x : SX.Idx → EReal) (w13 : SW13.Idx → EReal) (w2 : SW2.Idx → EReal) (s : Fin 4096) (d : Fin 3072) : EReal :=
  ∑ f : Fin 8192, act x w13 s f * w2 (ix2 f d)

/-- The whole result array. -/
def G (x : SX.Idx → EReal) (w13 : SW13.Idx → EReal) (w2 : SW2.Idx → EReal) : SX.Idx → EReal :=
  fun i => out x w13 w2 (i 1) (i 2)

theorem G_apply (x : SX.Idx → EReal) (w13 : SW13.Idx → EReal) (w2 : SW2.Idx → EReal) (b : Fin 1) (s : Fin 4096) (d : Fin 3072) :
    G x w13 w2 (ix3 b s d) = out x w13 w2 s d := rfl

end Cert.Spec

end
-- ==== Proof.PayIdeal.lean ====
/-
  The kernel body's arithmetic, read at one index of its block, on the extended reals.

  One grid step holds a [512, 3072] block `a` of rows of the activations, two [3072, 256] blocks of columns of the
  fused weight (the "up" columns and the "gate" columns of the same 256 hidden units), a [256, 3072] block of rows of
  the second weight and a [512, 3072] accumulator.  Each matrix product into the zero block is, at an index, the plain
  sum over the contraction index; the casts to the same shape are the identity; the elementwise steps read at the
  index; the narrowing to bf16 is the identity on the extended reals.  So the stored block at (p, d) is the
  accumulator there plus the sum over the 256 hidden units of the block of their clamped activations on row p times
  the second weight's entry (j, d).
-/
import proofs.«172588_j28905129902663_2_alg».proof.Proof.Gen.KernelIdeal.Skeleton
import proofs.«172588_j28905129902663_2_alg».proof.Proof.Spec
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem

/-- Row `p` of the block `a` against column `j` of the block `w`: the inner product over the 3072 features. -/
def projBlk (a : Vec Ideal S512x3072 .bf16) (w : Vec Ideal S3072x256 .bf16) (p : Fin 512) (j : Fin 256) : EReal :=
  ∑ k : Fin 3072, a (ix2 p k) * w (ix2 k j)

/-- The coordinates of the two products' operand indices on their free axes: the output index's own. -/
theorem mm1_lhs0 (i : S512x256.Idx) (q : dot_S512x3072_S3072x256_S512x256_1_0_0_1_n_n.contr.Idx) : (dot_S512x3072_S3072x256_S512x256_1_0_0_1_n_n.lhsIdx i q 0).val = (i 0).val := by
  unfold DotDims.lhsIdx
  rw [dif_neg (show ¬(0 : Fin S512x3072.rank) ∈ dot_S512x3072_S3072x256_S512x256_1_0_0_1_n_n.lhsBatch by decide),
    dif_pos (show (0 : Fin S512x3072.rank) ∈ dot_S512x3072_S3072x256_S512x256_1_0_0_1_n_n.lhsNonContracting by decide)]
  rfl
theorem mm1_rhs1 (i : S512x256.Idx) (q : dot_S512x3072_S3072x256_S512x256_1_0_0_1_n_n.contr.Idx) : (dot_S512x3072_S3072x256_S512x256_1_0_0_1_n_n.rhsIdx i q 1).val = (i 1).val := by
  unfold DotDims.rhsIdx
  rw [dif_neg (show ¬(1 : Fin S3072x256.rank) ∈ dot_S512x3072_S3072x256_S512x256_1_0_0_1_n_n.rhsBatch by decide),
    dif_pos (show (1 : Fin S3072x256.rank) ∈ dot_S512x3072_S3072x256_S512x256_1_0_0_1_n_n.rhsNonContracting by decide)]
  rfl
theorem mm2_lhs0 (i : S512x3072.Idx) (q : dot_S512x256_S256x3072_S512x3072_1_0_0_1_n_n.contr.Idx) : (dot_S512x256_S256x3072_S512x3072_1_0_0_1_n_n.lhsIdx i q 0).val = (i 0).val := by
  unfold DotDims.lhsIdx
  rw [dif_neg (show ¬(0 : Fin S512x256.rank) ∈ dot_S512x256_S256x3072_S512x3072_1_0_0_1_n_n.lhsBatch by decide),
    dif_pos (show (0 : Fin S512x256.rank) ∈ dot_S512x256_S256x3072_S512x3072_1_0_0_1_n_n.lhsNonContracting by decide)]
  rfl
theorem mm2_rhs1 (i : S512x3072.Idx) (q : dot_S512x256_S256x3072_S512x3072_1_0_0_1_n_n.contr.Idx) : (dot_S512x256_S256x3072_S512x3072_1_0_0_1_n_n.rhsIdx i q 1).val = (i 1).val := by
  unfold DotDims.rhsIdx
  rw [dif_neg (show ¬(1 : Fin S256x3072.rank) ∈ dot_S512x256_S256x3072_S512x3072_1_0_0_1_n_n.rhsBatch by decide),
    dif_pos (show (1 : Fin S256x3072.rank) ∈ dot_S512x256_S256x3072_S512x3072_1_0_0_1_n_n.rhsNonContracting by decide)]
  rfl

/-- The first product's dimension numbers: at output (p, j) and contraction position k the left operand is read at
    (p, k) and the right at (k, j); into the zero block the product is their sum over k. -/
theorem mm1_apply (a : Vec Ideal S512x3072 .bf16) (w : Vec Ideal S3072x256 .bf16) (p : Fin 512) (j : Fin 256) :
    FloatOps.matmul (F := Ideal) (φ₁ := .bf16) (φ₂ := .bf16) dot_S512x3072_S3072x256_S512x256_1_0_0_1_n_n none a w (constant S512x256 .f32 0x00000000#32) (ix2 p j)
      = projBlk a w p j := by
  unfold projBlk
  rw [Ideal.matmul_constant_zero_apply,
    ← Equiv.sum_comp (contrEquiv1 dot_S512x3072_S3072x256_S512x256_1_0_0_1_n_n 3072 rfl rfl).symm]
  refine Finset.sum_congr rfl fun k _ => ?_
  have hk := contrEquiv1_symm_val dot_S512x3072_S3072x256_S512x256_1_0_0_1_n_n 3072 rfl rfl k
  have el : dot_S512x3072_S3072x256_S512x256_1_0_0_1_n_n.lhsIdx (ix2 p j)
      ((contrEquiv1 dot_S512x3072_S3072x256_S512x256_1_0_0_1_n_n 3072 rfl rfl).symm k) = ix2 p k :=
    funext fun c => Fin.ext (by
      match c with
      | ⟨0, _⟩ => exact mm1_lhs0 _ _
      | ⟨1, _⟩ =>
        exact (dot_S512x3072_S3072x256_S512x256_1_0_0_1_n_n.lhsIdx_val_of_single rfl _ _).trans hk)
  have er : dot_S512x3072_S3072x256_S512x256_1_0_0_1_n_n.rhsIdx (ix2 p j)
      ((contrEquiv1 dot_S512x3072_S3072x256_S512x256_1_0_0_1_n_n 3072 rfl rfl).symm k) = ix2 k j :=
    funext fun c => Fin.ext (by
      match c with
      | ⟨0, _⟩ =>
        exact (dot_S512x3072_S3072x256_S512x256_1_0_0_1_n_n.rhsIdx_val_of_single rfl _ _).trans hk
      | ⟨1, _⟩ => exact mm1_rhs1 _ _)
  rw [el, er]

/-- The second product likewise: at output (p, d) the left operand is read at (p, j) and the right at (j, d), summed
    over the 256 hidden units j of the block. -/
theorem mm2_apply (h : FVec Ideal S512x256 .bf16) (w : Vec Ideal S256x3072 .bf16) (p : Fin 512) (d : Fin 3072) :
    FloatOps.matmul (F := Ideal) (φ₁ := .bf16) (φ₂ := .bf16) dot_S512x256_S256x3072_S512x3072_1_0_0_1_n_n none h w (constant S512x3072 .f32 0x00000000#32) (ix2 p d)
      = ∑ j : Fin 256, h (ix2 p j) * w (ix2 j d) := by
  rw [Ideal.matmul_constant_zero_apply,
    ← Equiv.sum_comp (contrEquiv1 dot_S512x256_S256x3072_S512x3072_1_0_0_1_n_n 256 rfl rfl).symm]
  refine Finset.sum_congr rfl fun k _ => ?_
  have hk := contrEquiv1_symm_val dot_S512x256_S256x3072_S512x3072_1_0_0_1_n_n 256 rfl rfl k
  have el : dot_S512x256_S256x3072_S512x3072_1_0_0_1_n_n.lhsIdx (ix2 p d)
      ((contrEquiv1 dot_S512x256_S256x3072_S512x3072_1_0_0_1_n_n 256 rfl rfl).symm k) = ix2 p k :=
    funext fun c => Fin.ext (by
      match c with
      | ⟨0, _⟩ => exact mm2_lhs0 _ _
      | ⟨1, _⟩ =>
        exact (dot_S512x256_S256x3072_S512x3072_1_0_0_1_n_n.lhsIdx_val_of_single rfl _ _).trans hk)
  have er : dot_S512x256_S256x3072_S512x3072_1_0_0_1_n_n.rhsIdx (ix2 p d)
      ((contrEquiv1 dot_S512x256_S256x3072_S512x3072_1_0_0_1_n_n 256 rfl rfl).symm k) = ix2 k d :=
    funext fun c => Fin.ext (by
      match c with
      | ⟨0, _⟩ =>
        exact (dot_S512x256_S256x3072_S512x3072_1_0_0_1_n_n.rhsIdx_val_of_single rfl _ _).trans hk
      | ⟨1, _⟩ => exact mm2_rhs1 _ _)
  rw [el, er]

/-- The block the body stores on every step, at (p, d): the accumulator plus the sum over the block's 256 hidden
    units of the clamped activation (gate · logistic gate · up) times the second weight's entry. -/
theorem pay2_apply (x0 : Vec Ideal S512x3072 .bf16) (x1 x2 : Vec Ideal S3072x256 .bf16) (x3 : Vec Ideal S256x3072 .bf16)
    (acc : Vec Ideal S512x3072 .f32) (p : Fin 512) (d : Fin 3072) :
    Cert.KernelIdeal.Gen.k0_pay2 (F := Ideal) x0 x1 x2 x3 acc (ix2 p d)
      = acc (ix2 p d) + ∑ j : Fin 256, Cert.Spec.gated (projBlk x0 x1 p j) (projBlk x0 x2 p j) * x3 (ix2 j d) := by
  unfold k0_pay2
  simp only [shapeCast_self]
  rw [addf_apply]
  refine congrArg (acc (ix2 p d) + ·) ?_
  refine (mm2_apply _ x3 p d).trans ?_
  refine Finset.sum_congr rfl fun j _ => ?_
  refine congrArg (· * x3 (ix2 j d)) ?_
  rw [truncf_apply, minimumf_apply, maximumf_apply, broadcast_apply, broadcast_apply, mulf_apply, mulf_apply]
  show min _ (max _ ((FloatOps.matmul (F := Ideal) (φ₁ := .bf16) (φ₂ := .bf16) dot_S512x3072_S3072x256_S512x256_1_0_0_1_n_n none x0 x2 (constant S512x256 .f32 0x00000000#32) (ix2 p j)
      * Ideal.logistic (FloatOps.matmul (F := Ideal) (φ₁ := .bf16) (φ₂ := .bf16) dot_S512x3072_S3072x256_S512x256_1_0_0_1_n_n none x0 x2 (constant S512x256 .f32 0x00000000#32) (ix2 p j)))
      * FloatOps.matmul (F := Ideal) (φ₁ := .bf16) (φ₂ := .bf16) dot_S512x3072_S3072x256_S512x256_1_0_0_1_n_n none x0 x1 (constant S512x256 .f32 0x00000000#32) (ix2 p j))) = _
  rw [mm1_apply, mm1_apply]
  rfl

/-- The block the body stores on a row block's first step: zero everywhere. -/
theorem pay1_apply (i : S512x3072.Idx) : Cert.KernelIdeal.Gen.k0_pay1 (F := Ideal) i = 0 := by
  unfold k0_pay1
  simp only [shapeCast_self]
  rw [broadcast_apply]
  exact Ideal.ofBits_zero_f32

end Cert.KernelIdeal.PayValue

end
-- ==== Proof.LibPrefixSum.lean ====
/-
  Prefix sums over an initial segment of the naturals, in any additive commutative monoid.

  A sum of the terms f 0, …, f (a + b − 1) is the sum of the first a of them plus the b terms that follow; so the
  sum of the first (k + 1) · q terms is the sum of the first k · q plus block k, the q terms f (k · q + j), j < q.
  This is the step of an accumulation that walks a long sum block by block: after block k the accumulator holds the
  prefix sum up to (k + 1) · q, and after the last block the whole sum, which is also the sum over Fin n.
  General: nothing here depends on a particular program.
-/
import Mathlib.Algebra.BigOperators.Fin
import Mathlib.Algebra.BigOperators.Group.Finset.Basic

open scoped BigOperators

namespace LibPrefixSum

variable {M : Type*} [AddCommMonoid M]

/-- The first a + b terms are the first a plus the b after them. -/
theorem prefix_add (f : ℕ → M) (a b : ℕ) :
    ∑ l ∈ Finset.range (a + b), f l = ∑ l ∈ Finset.range a, f l + ∑ j : Fin b, f (a + j.val) := by
  rw [Finset.sum_range_add]
  exact congrArg _ (Finset.sum_range fun x => f (a + x))

/-- The first (k + 1) · q terms are the first k · q plus block k. -/
theorem prefix_block (f : ℕ → M) (k q : ℕ) :
    ∑ l ∈ Finset.range ((k + 1) * q), f l = ∑ l ∈ Finset.range (k * q), f l + ∑ j : Fin q, f (k * q + j.val) := by
  rw [Nat.succ_mul, prefix_add]

/-- The first block alone: the first q terms, from zero. -/
theorem prefix_first (f : ℕ → M) (q : ℕ) :
    ∑ l ∈ Finset.range ((0 + 1) * q), f l = 0 + ∑ j : Fin q, f (0 * q + j.val) := by
  rw [prefix_block, Nat.zero_mul, Finset.range_zero, Finset.sum_empty]

/-- A prefix sum of n terms is the sum over Fin n. -/
theorem prefix_all (f : ℕ → M) (n : ℕ) : ∑ l ∈ Finset.range n, f l = ∑ k : Fin n, f k.val :=
  Finset.sum_range f

end LibPrefixSum
-- ==== Proof.AccMath.lean ====
/-
  The output's sum over the 8192 hidden units, walked in 32 blocks of 256.

  `term n` is the n-th summand of `out` (the activation of hidden unit n on row s times w2 at (n, d)), extended by
  zero past the last unit so that it is a function on the naturals.  `accAt fi` is the prefix sum of the terms of blocks
  0, …, fi.  The first prefix is zero plus block 0, each later prefix is the previous one plus its block, and the prefix
  after block 31 is the whole sum, `out`.
-/
import proofs.«172588_j28905129902663_2_alg».proof.Proof.Spec
import proofs.«172588_j28905129902663_2_alg».proof.Proof.LibPrefixSum

noncomputable section

namespace Cert.Spec

open Idealize.ShloMosaic Idealize.ShloMosaic.ValueIdx

/-- The n-th term of the output's sum over the hidden units; zero past the 8192 units. -/
def term (x : SX.Idx → EReal) (w13 : SW13.Idx → EReal) (w2 : SW2.Idx → EReal) (s : Fin 4096) (d : Fin 3072) (n : ℕ) : EReal :=
  if h : n < 8192 then act x w13 s (⟨n, h⟩ : Fin 8192) * w2 (ix2 (⟨n, h⟩ : Fin 8192) d) else 0

/-- The running sum after hidden block fi (256 units per block). -/
def accAt (x : SX.Idx → EReal) (w13 : SW13.Idx → EReal) (w2 : SW2.Idx → EReal) (s : Fin 4096) (d : Fin 3072) (fi : ℕ) : EReal :=
  ∑ n ∈ Finset.range ((fi + 1) * 256), term x w13 w2 s d n

/-- Below 8192 the term is the summand of `out`. -/
theorem term_lt (x : SX.Idx → EReal) (w13 : SW13.Idx → EReal) (w2 : SW2.Idx → EReal) (s : Fin 4096) (d : Fin 3072) (n : ℕ) (h : n < 8192) :
    term x w13 w2 s d n = act x w13 s (⟨n, h⟩ : Fin 8192) * w2 (ix2 (⟨n, h⟩ : Fin 8192) d) :=
  dif_pos h

/-- The first running sum is zero plus block 0. -/
theorem accAt_zero (x : SX.Idx → EReal) (w13 : SW13.Idx → EReal) (w2 : SW2.Idx → EReal) (s : Fin 4096) (d : Fin 3072) :
    accAt x w13 w2 s d 0 = 0 + ∑ j : Fin 256, term x w13 w2 s d (0 * 256 + j.val) :=
  LibPrefixSum.prefix_first (term x w13 w2 s d) 256

/-- Each later running sum is the previous one plus its block. -/
theorem accAt_succ (x : SX.Idx → EReal) (w13 : SW13.Idx → EReal) (w2 : SW2.Idx → EReal) (s : Fin 4096) (d : Fin 3072) (fi : ℕ) :
    accAt x w13 w2 s d (fi + 1) = accAt x w13 w2 s d fi + ∑ j : Fin 256, term x w13 w2 s d ((fi + 1) * 256 + j.val) :=
  LibPrefixSum.prefix_block (term x w13 w2 s d) (fi + 1) 256

/-- After the last of the 32 blocks the running sum is the output: 32 · 256 = 8192 terms, each the summand of `out`. -/
theorem accAt_last (x : SX.Idx → EReal) (w13 : SW13.Idx → EReal) (w2 : SW2.Idx → EReal) (s : Fin 4096) (d : Fin 3072) :
    accAt x w13 w2 s d 31 = out x w13 w2 s d := by
  unfold accAt out
  rw [show (31 + 1) * 256 = 8192 from rfl, LibPrefixSum.prefix_all]
  exact Finset.sum_congr rfl fun k _ => term_lt x w13 w2 s d k.val k.isLt

end Cert.Spec

end
-- ==== Proof.KI.Value.lean ====
/-
  The value of the fused feed-forward kernel on the extended reals.  Row tile `si` of the output is accumulated over
  the 32 hidden blocks: after block `fi` the accumulator at (p, d) is the sum of the first (fi + 1) · 256 terms
  act(s, n) · w2(n, d) of row s = 512 · si + p — at the first block from zero, afterwards the running sum plus the
  block's 256 terms — so after the last block it is the whole sum over the 8192 hidden units; that is what the one
  write-back of the tile stores, the eight tiles cover the result array, and the final reshape adds a unit axis.
-/
import proofs.«172588_j28905129902663_2_alg».proof.Proof.KI.Main
import proofs.«172588_j28905129902663_2_alg».proof.Proof.KI.Pieces
import proofs.«172588_j28905129902663_2_alg».proof.Proof.KI.Blocks
import proofs.«172588_j28905129902663_2_alg».proof.Proof.PayIdeal
import proofs.«172588_j28905129902663_2_alg».proof.Proof.AccMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

open Cert.KernelIdeal.PayValue (projBlk pay2_apply pay1_apply)

/-- The three argument arrays as launched. -/
abbrev aX (c : Dev nD) : Cert.Spec.SX.Idx → EReal := m ((c : Thread nD τ).loc main_arg0)
abbrev aW13 (c : Dev nD) : Cert.Spec.SW13.Idx → EReal := m ((c : Thread nD τ).loc main_arg1)
abbrev aW2 (c : Dev nD) : Cert.Spec.SW2.Idx → EReal := m ((c : Thread nD τ).loc main_arg2)

theorem hN256 {n : ℕ} (h : n < cfg0.N) : n < 256 := lt_of_lt_of_eq h (show cfg0.N = 256 from N_0)

/-- The row of the arrays that row `p` of grid point `n`'s tile is. -/
def rowOf (n : ℕ) (hn : n < 256) (p : Fin 512) : Fin 4096 := ⟨n / 32 * 512 + p.val, by have := p.isLt; omega⟩

/-- The hidden unit that column `j` of grid point `n`'s hidden block is. -/
theorem unit_lt (n : ℕ) (j : Fin 256) : n % 32 * 256 + j.val < 8192 := by have := j.isLt; omega

/-- The four input blocks of a grid point, read at an entry: rows of its row tile of `x`, the up and gate columns of
    its hidden block of `w13`, and the rows of its hidden block of `w2` (the roundings to bf16 are the identity here). -/
theorem blk0 (c : Dev nD) (t : Fin cfg0.N) (p : Fin 512) (k : Fin 3072) :
    iblk m c 0 t (ix2 p k) = aX m c (ix3 (0 : Fin 1) (rowOf t.val (hN256 t.isLt) p) k) :=
  iblk0_apply m c t p k (rowOf t.val (hN256 t.isLt) p).isLt
theorem blk1 (c : Dev nD) (t : Fin cfg0.N) (k : Fin 3072) (j : Fin 256) :
    iblk m c 1 t (ix2 k j) = aW13 m c (ix2 k (⟨t.val % 32 * 256 + j.val, by have := j.isLt; omega⟩ : Fin 16384)) :=
  iblk1_apply m c t k j (by have := j.isLt; omega)
theorem blk2 (c : Dev nD) (t : Fin cfg0.N) (k : Fin 3072) (j : Fin 256) :
    iblk m c 2 t (ix2 k j) = aW13 m c (ix2 k (⟨8192 + (t.val % 32 * 256 + j.val), by have := j.isLt; omega⟩ : Fin 16384)) := by
  rw [iblk2_apply m c t k j (by have := j.isLt; omega)]
  exact congrArg (fun f : Fin 16384 => aW13 m c (ix2 k f)) (Fin.ext (Nat.add_assoc _ _ _))
theorem blk3 (c : Dev nD) (t : Fin cfg0.N) (j : Fin 256) (d : Fin 3072) :
    iblk m c 3 t (ix2 j d) = aW2 m c (ix2 (⟨t.val % 32 * 256 + j.val, unit_lt t.val j⟩ : Fin 8192) d) :=
  iblk3_apply m c t j d (unit_lt t.val j)

/-- A point's block product, term by term: the 256 terms of its hidden block. -/
theorem blockTerm (c : Dev nD) (t : Fin cfg0.N) (p : Fin 512) (d : Fin 3072) :
    (∑ j : Fin 256, Cert.Spec.gated (projBlk (iblk m c 0 t) (iblk m c 1 t) p j) (projBlk (iblk m c 0 t) (iblk m c 2 t) p j) * iblk m c 3 t (ix2 j d))
      = ∑ j : Fin 256, Cert.Spec.term (aX m c) (aW13 m c) (aW2 m c) (rowOf t.val (hN256 t.isLt) p) d (t.val % 32 * 256 + j.val) := by
  refine Finset.sum_congr rfl fun j _ => ?_
  rw [Cert.Spec.term_lt _ _ _ _ _ _ (unit_lt t.val j)]
  have hu : projBlk (iblk m c 0 t) (iblk m c 1 t) p j
      = Cert.Spec.proj (aX m c) (aW13 m c) (rowOf t.val (hN256 t.isLt) p) (Cert.Spec.upCol ⟨t.val % 32 * 256 + j.val, unit_lt t.val j⟩) := by
    unfold projBlk Cert.Spec.proj
    refine Finset.sum_congr rfl fun k _ => ?_
    rw [blk0 m c t p k, blk1 m c t k j]
    rfl
  have hg : projBlk (iblk m c 0 t) (iblk m c 2 t) p j
      = Cert.Spec.proj (aX m c) (aW13 m c) (rowOf t.val (hN256 t.isLt) p) (Cert.Spec.gateCol ⟨t.val % 32 * 256 + j.val, unit_lt t.val j⟩) := by
    unfold projBlk Cert.Spec.proj
    refine Finset.sum_congr rfl fun k _ => ?_
    rw [blk0 m c t p k, blk2 m c t k j]
    rfl
  rw [hu, hg, blk3 m c t j d]
  rfl

/-- THE ACCUMULATOR after grid point `n`: the running sum of its row tile through its hidden block. -/
theorem acc_eq (c : Dev nD) : ∀ (n : ℕ) (h : n < cfg0.N) (p : Fin 512) (d : Fin 3072),
    (outsAt0 m c n h).2 (ix2 p d) = Cert.Spec.accAt (aX m c) (aW13 m c) (aW2 m c) (rowOf n (hN256 h) p) d (n % 32)
  | 0, h, p, d => by
    rw [outsAt0_A m c ⟨0, h⟩ rfl (by dsimp only; omega)]
    dsimp only
    rw [sout0_A_0_eq, pay2_apply, pay1_apply, blockTerm m c ⟨0, h⟩ p d]
    exact (Cert.Spec.accAt_zero _ _ _ _ _).symm
  | n + 1, h, p, d => by
    have hn := hN256 h
    by_cases h0 : (n + 1) % 32 = 0
    · have h1 : ¬(n + 1) % 32 = 31 := by omega
      rw [outsAt0_A m c ⟨n + 1, h⟩ h0 h1]
      dsimp only
      rw [sout0_A_0_eq, pay2_apply, pay1_apply, blockTerm m c ⟨n + 1, h⟩ p d]
      dsimp only
      rw [h0]
      exact (Cert.Spec.accAt_zero _ _ _ _ _).symm
    · have ih := acc_eq c n (Nat.lt_of_succ_lt h) p d
      have hrow : rowOf (n + 1) hn p = rowOf n (hN256 (Nat.lt_of_succ_lt h)) p := Fin.ext (by unfold rowOf; dsimp only; omega)
      have hfi : (n + 1) % 32 = n % 32 + 1 := by omega
      have key : (outsAt0 m c n (Nat.lt_of_succ_lt h)).2 (ix2 p d)
          + ∑ j : Fin 256, Cert.Spec.term (aX m c) (aW13 m c) (aW2 m c) (rowOf (n + 1) hn p) d ((n + 1) % 32 * 256 + j.val)
          = Cert.Spec.accAt (aX m c) (aW13 m c) (aW2 m c) (rowOf (n + 1) hn p) d ((n + 1) % 32) := by
        rw [ih, hrow, hfi]
        exact (Cert.Spec.accAt_succ _ _ _ _ _ _).symm
      by_cases h1 : (n + 1) % 32 = 31
      · rw [outsAt0_C m c ⟨n + 1, h⟩ h0 h1]
        dsimp only
        rw [sout0_C_0_eq, pay2_apply, blockTerm m c ⟨n + 1, h⟩ p d]
        exact key
      · rw [outsAt0_B m c ⟨n + 1, h⟩ h0 h1]
        dsimp only
        rw [sout0_B_0_eq, pay2_apply, blockTerm m c ⟨n + 1, h⟩ p d]
        exact key

/-- At the last hidden block the output block holds what the accumulator holds. -/
theorem out_eq_acc (c : Dev nD) (t : Fin cfg0.N) (h31 : t.val % 32 = 31) :
    (outsAt0 m c t.val t.isLt).1 = (outsAt0 m c t.val t.isLt).2 := by
  have h0 : ¬t.val % 32 = 0 := by omega
  rw [outsAt0_C m c t h0 h31]
  dsimp only
  rw [out0_C_4_eq, sout0_C_0_eq]

/-- The kernel's result array: the output function of the launched arguments, row by row. -/
def result (c : Dev nD) : Buf (Elt Ideal) ((c : Thread nD τ).loc main_v4) :=
  fun i => Cert.Spec.out (aX m c) (aW13 m c) (aW2 m c) (i 0) (i 1)

/-- The output window's block index at a point: its row tile. -/
theorem idx4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- What a row tile's one write-back stores is that tile of the output function. -/
theorem flushed_eq (c : Dev nD) (t : Fin cfg0.N) (hf : (cfg0.win 4).flush t = true) :
    (dats m 0 c).flushed 4 t = ((cfg0.win 4).blk t).view.read (Elt Ideal) (result m c) := by
  have h31 : t.val % 32 = 31 := (flush0_4 t).mp hf
  obtain ⟨e0, e1⟩ := idx4 t
  show (cfg0.win 4).cut (grid0.coords t) ((dats m 0 c).after 4 t) = _
  rw [after0_4, out_eq_acc m c t h31]
  funext y
  obtain ⟨p, d, rfl⟩ : ∃ (p : Fin 512) (d : Fin 3072), y = ix2 p d := ⟨y 0, y 1, eq_ix2 y⟩
  show (outsAt0 m c t.val t.isLt).2 (ix2 p d) = result m c (((cfg0.win 4).blk t).view.emb (ix2 p d))
  rw [acc_eq m c t.val t.isLt p d, h31, Cert.Spec.accAt_last]
  unfold result
  have hr : (((cfg0.win 4).blk t).view.emb (ix2 p d)) 0 = rowOf t.val (hN256 t.isLt) p := by
    apply Fin.ext
    show win0_4.index t (0 : Fin 2) * 512 + 1 * p.val = t.val / 32 * 512 + p.val
    rw [e0]; omega
  have hd : (((cfg0.win 4).blk t).view.emb (ix2 p d)) 1 = d := by
    apply Fin.ext
    show win0_4.index t (1 : Fin 2) * 3072 + 1 * d.val = d.val
    rw [e1]; omega
  rw [hr, hd]

theorem mem_blk4 (t : Fin cfg0.N) (i : S4096x3072.Idx) :
    i ∈ ((cfg0.win 4).blk t).view.set ↔ ∀ a : Fin 2, win0_4.index t a * S512x3072.size a ≤ (i a).val ∧ (i a).val < win0_4.index t a * S512x3072.size a + S512x3072.size a := by
  show i ∈ ((View.whole main_v4).slice (win0_4.rect t)).set ↔ _
  rw [View.set_slice_whole, Rect.mem_set_unit]
  exact Iff.rfl

/-- The eight row tiles cover the result array, so it ends holding the output function. -/
theorem final4 (c : Dev nD) : (dats m 0 c).arrAt 4 cfg0.N = result m c :=
  (dats m 0 c).arrAt_eq_of_cover 4 (result m c) (flushed_eq m c) fun i => by
    have hi0 : (i 0).val < 4096 := (i 0).isLt
    have hi1 : (i 1).val < 3072 := (i 1).isLt
    have hN : cfg0.N = 256 := N_0
    let t : Fin cfg0.N := ⟨(i 0).val / 512 * 32 + 31, by rw [hN]; omega⟩
    have ht : t.val = (i 0).val / 512 * 32 + 31 := rfl
    obtain ⟨e0, e1⟩ := idx4 t
    refine ⟨t, (flush0_4 t).mpr (by rw [ht]; omega), ?_⟩
    rw [mem_blk4]
    intro a
    match a with
    | ⟨0, _⟩ => show win0_4.index t (0 : Fin 2) * 512 ≤ (i 0).val ∧ (i 0).val < win0_4.index t (0 : Fin 2) * 512 + 512
                rw [e0, ht]; omega
    | ⟨1, _⟩ => show win0_4.index t (1 : Fin 2) * 3072 ≤ (i 1).val ∧ (i 1).val < win0_4.index t (1 : Fin 2) * 3072 + 3072
                rw [e1]; omega

/-- The result with its leading unit axis is the specification's array. -/
theorem result_eq (c : Dev nD) :
    shapeCast S1x4096x3072 ((dats m 0 c).arrAt 4 cfg0.N) shapeCasts_S4096x3072_S1x4096x3072 = Cert.Spec.G (aX m c) (aW13 m c) (aW2 m c) := by
  rw [final4]
  funext i
  obtain ⟨b, s, d, rfl⟩ : ∃ (b : Fin 1) (s : Fin 4096) (d : Fin 3072), i = ix3 b s d := ⟨_, _, _, eq_ix3 i⟩
  rw [Cert.Spec.G_apply]
  exact shapeCast_addUnit_apply ![4096, 3072] (result m c) shapeCasts_S4096x3072_S1x4096x3072 (ix3 b s d)

/-- THE VALUE RUN: the program ends with its result at the specification's array of the launched arguments, and the
    arguments unchanged. -/
theorem run : θ_run defs (onTc (τ := τ) (main (F := Ideal))) ⟨m, fun _ => 0, ρ⟩ (fun r => ∀ c : Dev nD,
      r.2.mem ((c.tc : Thread nD τ).loc main_v5) = Cert.Spec.G (aX m c) (aW13 m c) (aW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (run_value (F := Ideal) m ρ)

end Cert.KernelIdeal.Hand

end
-- ==== Proof.RefIsG.lean ====
import proofs.«172588_j28905129902663_2_alg».proof.Defs
import proofs.«172588_j28905129902663_2_alg».proof.Proof.Gen.ReferenceIdeal.Read
import proofs.«172588_j28905129902663_2_alg».proof.Proof.Spec
import Idealize.ShloMosaic.PureOps.Ideal
import Idealize.ShloMosaic.Lib.ValueIdx

/-
  The reference program's result is the specification `Cert.Spec.G`.

  The reference computes the fused projection `x · w13` once, slices its columns `[0, 8192)` (the up values) and
  `[8192, 16384)` (the gate values), multiplies the gate by `1 / (1 + e^(-gate))` (the logistic, spelt out) and by the
  up value, clamps to `[-65504, 65504]`, and contracts the 8192 hidden units against `w2`.  Read at one index, each
  step is the corresponding line of `Cert.Spec`.
-/

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The binary32 word `0x3F800000` denotes `1`. -/
theorem one_bits : Ideal.ofBits .f32 0x3F800000#32 = 1 := by
  simp [Ideal.ofBits, Ideal.ieee, -EReal.coe_mul]; norm_num

/-- The fused projection at row `s`, column `f` is the inner product `Cert.Spec.proj`. -/
theorem v0_at (x0 : (⟨S1x4096x3072, .f32⟩ : BufTy).Contents (Elt Ideal)) (x1 : (⟨S3072x16384, .f32⟩ : BufTy).Contents (Elt Ideal))
    (b : Fin 1) (s : Fin 4096) (f : Fin 16384) :
    val_main_v0 (F := Ideal) x0 x1 (ix3 b s f) = Cert.Spec.proj x0 x1 s f := by
  rw [val_main_v0_apply]
  unfold Cert.Spec.proj
  refine Finset.sum_congr rfl fun k _ => ?_
  have e1 : lidx_main_v0 (ix3 b s f) k = ix3 (0 : Fin 1) s k := by
    funext a; match a with | ⟨0, _⟩ => exact Fin.ext (by have hb := b.isLt; show b.val = 0; omega) | ⟨1, _⟩ => rfl | ⟨2, _⟩ => rfl
  have e2 : ridx_main_v0 (ix3 b s f) k = ix2 k f := by
    funext a; match a with | ⟨0, _⟩ => rfl | ⟨1, _⟩ => rfl
  rw [e1, e2]

/-- The first slice reads the fused projection at the up column. -/
theorem idx_v1_at (b : Fin 1) (s : Fin 4096) (k : Fin 8192) :
    idx_main_v1 (ix3 b s k) = ix3 b s (Cert.Spec.upCol k) := by
  funext a; match a with | ⟨0, _⟩ => rfl | ⟨1, _⟩ => rfl | ⟨2, _⟩ => rfl

/-- The second slice reads the fused projection at the gate column. -/
theorem idx_v2_at (b : Fin 1) (s : Fin 4096) (k : Fin 8192) :
    idx_main_v2 (ix3 b s k) = ix3 b s (Cert.Spec.gateCol k) := by
  funext a; match a with | ⟨0, _⟩ => rfl | ⟨1, _⟩ => rfl | ⟨2, _⟩ => rfl

/-- The clamped hidden activation at row `s`, hidden unit `k` is `Cert.Spec.act`. -/
theorem v5_at (x0 : (⟨S1x4096x3072, .f32⟩ : BufTy).Contents (Elt Ideal)) (x1 : (⟨S3072x16384, .f32⟩ : BufTy).Contents (Elt Ideal))
    (b : Fin 1) (s : Fin 4096) (k : Fin 8192) :
    val_main_v5 (F := Ideal) x0 x1 (ix3 b s k) = Cert.Spec.act x0 x1 s k := by
  rw [val_main_v5_apply, val_main_call1_v4_apply, val_main_call1_v3_apply, val_main_cst_0_apply,
    val_main_call1_v2_apply, val_main_call1_v1_apply, val_main_call1_v0_apply, val_main_cst_apply,
    val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v2_apply,
    idx_v1_at, idx_v2_at, v0_at, v0_at]
  simp only [Ideal.ofBits_def, Ideal.minimumf_def, Ideal.maximumf_def, Ideal.mulf_def, Ideal.addf_def,
    Ideal.hostDivf_def, Ideal.hostUnary_exp_def, Ideal.hostNegf_def, Ideal.negf_def, one_bits]
  rfl

/-- The reference's result at `(b, s, d)` is `Cert.Spec.out` at `(s, d)`. -/
theorem ref_at (x0 : (⟨S1x4096x3072, .f32⟩ : BufTy).Contents (Elt Ideal)) (x1 : (⟨S3072x16384, .f32⟩ : BufTy).Contents (Elt Ideal))
    (x2 : (⟨S8192x3072, .f32⟩ : BufTy).Contents (Elt Ideal)) (b : Fin 1) (s : Fin 4096) (d : Fin 3072) :
    val_main_v6 (F := Ideal) x0 x1 x2 (ix3 b s d) = Cert.Spec.G x0 x1 x2 (ix3 b s d) := by
  rw [val_main_v6_apply, Cert.Spec.G_apply]
  unfold Cert.Spec.out
  refine Finset.sum_congr rfl fun k _ => ?_
  have e1 : lidx_main_v6 (ix3 b s d) k = ix3 b s k := by
    funext a; match a with | ⟨0, _⟩ => rfl | ⟨1, _⟩ => rfl | ⟨2, _⟩ => rfl
  have e2 : ridx_main_v6 (ix3 b s d) k = ix2 k d := by
    funext a; match a with | ⟨0, _⟩ => rfl | ⟨1, _⟩ => rfl
  rw [e1, e2, v5_at]

/-- The reference program's result array is the specification's. -/
theorem ref_eq (x0 : (⟨S1x4096x3072, .f32⟩ : BufTy).Contents (Elt Ideal)) (x1 : (⟨S3072x16384, .f32⟩ : BufTy).Contents (Elt Ideal))
    (x2 : (⟨S8192x3072, .f32⟩ : BufTy).Contents (Elt Ideal)) :
    val_main_v6 (F := Ideal) x0 x1 x2 = Cert.Spec.G x0 x1 x2 := by
  funext i
  obtain ⟨b, s, d, rfl⟩ : ∃ (b : Fin 1) (s : Fin 4096) (d : Fin 3072), i = ix3 b s d := ⟨_, _, _, eq_ix3 i⟩
  exact ref_at x0 x1 x2 b s d

/-- The composed term the reference's run ends with at its result buffer, over arguments `x0`, `x1`, `x2`, is the
    specification's array. -/
theorem run_term_eq (x0 : (⟨S1x4096x3072, .f32⟩ : BufTy).Contents (Elt Ideal)) (x1 : (⟨S3072x16384, .f32⟩ : BufTy).Contents (Elt Ideal))
    (x2 : (⟨S8192x3072, .f32⟩ : BufTy).Contents (Elt Ideal)) :
    (Host.dotGeneral (F := Ideal) (φ₁ := .f32) (φ₂ := .f32) dot_S1x4096x8192_S8192x3072_S1x4096x3072_2_0_01_1_n_n none (minimumf (broadcastInDim S1x4096x8192 ![] bcast_S_S1x4096x8192 (id (constant S_ .f32 0x477FE000#32))) (maximumf (broadcastInDim S1x4096x8192 ![] bcast_S_S1x4096x8192 (id (constant S_ .f32 0xC77FE000#32))) (mulf (mulf (extractStridedSlice S1x4096x8192 ![0, 0, 8192] (Host.dotGeneral (F := Ideal) (φ₁ := .f32) (φ₂ := .f32) dot_S1x4096x3072_S3072x16384_S1x4096x16384_2_0_01_1_n_n none (x0) (x1)) slices_S1x4096x16384_S1x4096x8192_0_0_8192) (Host.divf (broadcastInDim S1x4096x8192 ![] bcast_S_S1x4096x8192 (constant S_ .f32 0x3F800000#32)) (addf (broadcastInDim S1x4096x8192 ![] bcast_S_S1x4096x8192 (constant S_ .f32 0x3F800000#32)) (Host.exp (Host.negf (extractStridedSlice S1x4096x8192 ![0, 0, 8192] (Host.dotGeneral (F := Ideal) (φ₁ := .f32) (φ₂ := .f32) dot_S1x4096x3072_S3072x16384_S1x4096x16384_2_0_01_1_n_n none (x0) (x1)) slices_S1x4096x16384_S1x4096x8192_0_0_8192)))))) (extractStridedSlice S1x4096x8192 ![0, 0, 0] (Host.dotGeneral (F := Ideal) (φ₁ := .f32) (φ₂ := .f32) dot_S1x4096x3072_S3072x16384_S1x4096x16384_2_0_01_1_n_n none (x0) (x1)) slices_S1x4096x16384_S1x4096x8192_0_0_0)))) (x2) : (⟨S1x4096x3072, .f32⟩ : BufTy).Contents (Elt Ideal))
      = Cert.Spec.G x0 x1 x2 :=
  (val_main_v6_eq (F := Ideal) x0 x1 x2).trans (ref_eq x0 x1 x2)

end Cert.ReferenceIdeal.RefValue

end
-- ==== Proof.lean ====
/-
  The fused SwiGLU feed-forward kernel against its reference, on the extended reals.

  Both programs compute, for a row s of the activations and an output feature d,
      out(s, d) = Σ_{f < 8192} clamp(g · logistic(g) · u) · w2(f, d),   u = ⟨x_s, w13[:, f]⟩,  g = ⟨x_s, w13[:, 8192 + f]⟩,
  the clamp to [-65504, 65504].  The reference does it with two whole matrix products; the kernel walks a grid of
  8 row tiles × 32 hidden blocks, adding each hidden block's product into an accumulator that is cleared at a tile's
  first block and copied out at its last.  On the extended reals a change of float format is the identity, the
  kernel's logistic is the reference's 1 / (1 + e^(-g)), and a sum walked block by block from zero is the whole sum
  (addition is associative and commutative there; no finiteness is used), so the two results are equal element by
  element.  The ideal pass rewrote nothing, so the kernel's idealization is its own text and that conjunct is trivial.

  The kernel reads one array — the rounded fused weight — through two windows (the up columns and the gate columns),
  so its launch deals that array's share between the two windows and joins it again at the exit; the three frames
  follow from the runs: both kernel programs' from the launch, the reference's from its host run.
-/
import proofs.«172588_j28905129902663_2_alg».proof.Defs
import proofs.«172588_j28905129902663_2_alg».proof.Proof.Gen.Kernel
import proofs.«172588_j28905129902663_2_alg».proof.Proof.Gen.KernelIdeal
import proofs.«172588_j28905129902663_2_alg».proof.Proof.Gen.ReferenceIdeal
import proofs.«172588_j28905129902663_2_alg».proof.Proof.Gen.Pre_finite_inputs
import proofs.«172588_j28905129902663_2_alg».proof.Proof.Gen.ReferenceIdeal.Run
import proofs.«172588_j28905129902663_2_alg».proof.Proof.K.Main
import proofs.«172588_j28905129902663_2_alg».proof.Proof.KI.Value
import proofs.«172588_j28905129902663_2_alg».proof.Proof.RefIsG

noncomputable section

namespace Cert.Proof

open Idealize.ShloMosaic Idealize.ShloMosaic.TcCoe Idealize.SL.Sem

/-- The kernel as printed runs to the end and leaves its arguments as launched. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result and the reference's are the same array of the arguments. -/
theorem algebraic : Cert.algebraic_KernelIdeal_ReferenceIdeal := by
  intro m ρ m' ρ' _ hagree
  refine ⟨fun c => Cert.Spec.G (Cert.KernelIdeal.Hand.aX m c) (Cert.KernelIdeal.Hand.aW13 m c) (Cert.KernelIdeal.Hand.aW2 m c),
    Cert.KernelIdeal.Hand.run m ρ, ?_⟩
  refine (θ_run Cert.ReferenceIdeal.defs _ _).mono (fun _ h c => ⟨((h c).1.trans (Cert.ReferenceIdeal.RefValue.run_term_eq _ _ _)).trans ?_, (h c).2⟩)
    (Cert.ReferenceIdeal.Value.run (F := Ideal) m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
